-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x640000 32) (main_arg2 : FVec F S128x128 .f32) (main_arg3 : FVec F S128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S100000 : Shape := ⟨1, ![100000]⟩
abbrev S1x640000 : Shape := ⟨2, ![1, 640000]⟩
abbrev S640000 : Shape := ⟨1, ![640000]⟩
abbrev S740000 : Shape := ⟨1, ![740000]⟩
abbrev S_ : Shape := ⟨0, ![]⟩
abbrev S740000x1 : Shape := ⟨2, ![740000, 1]⟩
abbrev S10000x128 : Shape := ⟨2, ![10000, 128]⟩
abbrev S740000x128 : Shape := ⟨2, ![740000, 128]⟩
abbrev S1x128 : Shape := ⟨2, ![1, 128]⟩

abbrev nBuf : Space → Nat
  | .hbm => 87
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S100000, .i32⟩
  | .hbm, ⟨7, _⟩ => ⟨S1x640000, .i32⟩
  | .hbm, ⟨8, _⟩ => ⟨S640000, .i32⟩
  | .hbm, ⟨9, _⟩ => ⟨S740000, .i32⟩
  | .hbm, ⟨10, _⟩ => ⟨S1x640000, .i32⟩
  | .hbm, ⟨11, _⟩ => ⟨S640000, .i32⟩
  | .hbm, ⟨12, _⟩ => ⟨S740000, .i32⟩
  | .hbm, ⟨13, _⟩ => ⟨S_, .f32⟩
  | .hbm, ⟨14, _⟩ => ⟨S740000, .f32⟩
  | .hbm, ⟨15, _⟩ => ⟨S_, .f32⟩
  | .hbm, ⟨16, _⟩ => ⟨S100000, .f32⟩
  | .hbm, ⟨17, _⟩ => ⟨S740000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S740000, .i32⟩
  | .hbm, ⟨32, _⟩ => ⟨S740000, .i1⟩
  | .hbm, ⟨33, _⟩ => ⟨S_, .i32⟩
  | .hbm, ⟨34, _⟩ => ⟨S740000, .i32⟩
  | .hbm, ⟨35, _⟩ => ⟨S740000, .i32⟩
  | .hbm, ⟨36, _⟩ => ⟨S740000, .i32⟩
  | .hbm, ⟨37, _⟩ => ⟨S740000x1, .i32⟩
  | .hbm, ⟨38, _⟩ => ⟨S740000, .f32⟩
  | .hbm, ⟨39, _⟩ => ⟨S_, .i32⟩
  | .hbm, ⟨40, _⟩ => ⟨S740000, .i32⟩
  | .hbm, ⟨41, _⟩ => ⟨S740000, .i1⟩
  | .hbm, ⟨42, _⟩ => ⟨S_, .i32⟩
  | .hbm, ⟨43, _⟩ => ⟨S740000, .i32⟩
  | .hbm, ⟨44, _⟩ => ⟨S740000, .i32⟩
  | .hbm, ⟨45, _⟩ => ⟨S740000, .i32⟩
  | .hbm, ⟨46, _⟩ => ⟨S740000x1, .i32⟩
  | .hbm, ⟨47, _⟩ => ⟨S740000, .f32⟩
  | .hbm, ⟨48, _⟩ => ⟨S740000, .f32⟩
  | .hbm, ⟨49, _⟩ => ⟨S100000x128, .f32⟩
  | .hbm, ⟨50, _⟩ => ⟨S_, .i32⟩
  | .hbm, ⟨51, _⟩ => ⟨S740000, .i32⟩
  | .hbm, ⟨52, _⟩ => ⟨S740000, .i1⟩
  | .hbm, ⟨53, _⟩ => ⟨S_, .i32⟩
  | .hbm, ⟨54, _⟩ => ⟨S740000, .i32⟩
  | .hbm, ⟨55, _⟩ => ⟨S740000, .i32⟩
  | .hbm, ⟨56, _⟩ => ⟨S740000, .i32⟩
  | .hbm, ⟨57, _⟩ => ⟨S740000x1, .i32⟩
  | .hbm, ⟨58, _⟩ => ⟨S740000x128, .f32⟩
  | .hbm, ⟨59, _⟩ => ⟨S740000x1, .f32⟩
  | .hbm, ⟨60, _⟩ => ⟨S740000x128, .f32⟩
  | .hbm, ⟨61, _⟩ => ⟨S740000x128, .f32⟩
  | .hbm, ⟨62, _⟩ => ⟨S_, .f32⟩
  | .hbm, ⟨63, _⟩ => ⟨S100000x128, .f32⟩
  | .hbm, ⟨64, _⟩ => ⟨S740000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .i32⟩
  | .hbm, ⟨70, _⟩ => ⟨S740000, .i32⟩
  | .hbm, ⟨71, _⟩ => ⟨S740000, .i1⟩
  | .hbm, ⟨72, _⟩ => ⟨S_, .i32⟩
  | .hbm, ⟨73, _⟩ => ⟨S740000, .i32⟩
  | .hbm, ⟨74, _⟩ => ⟨S740000, .i32⟩
  | .hbm, ⟨75, _⟩ => ⟨S740000, .i32⟩
  | .hbm, ⟨76, _⟩ => ⟨S740000x1, .i32⟩
  | .hbm, ⟨77, _⟩ => ⟨S740000x128, .f32⟩
  | .hbm, ⟨78, _⟩ => ⟨S740000x1, .f32⟩
  | .hbm, ⟨79, _⟩ => ⟨S740000x128, .f32⟩
  | .hbm, ⟨80, _⟩ => ⟨S740000x128, .f32⟩
  | .hbm, ⟨81, _⟩ => ⟨S_, .f32⟩
  | .hbm, ⟨82, _⟩ => ⟨S100000x128, .f32⟩
  | .hbm, ⟨83, _⟩ => ⟨S740000x1, .i32⟩
  | .hbm, ⟨84, _⟩ => ⟨S100000x128, .f32⟩
  | .hbm, ⟨85, _⟩ => ⟨S1x128, .f32⟩
  | .hbm, ⟨86, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S1x128, .f32⟩
  | .local _ .vmem, ⟨18, _⟩ => ⟨S10000x128, .f32⟩
  | .local _ .vmem, ⟨19, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_c_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x640000_S1x640000_0_0 : S2x640000.Slices ![0, 0] S1x640000
  shapeCasts_S1x640000_S640000 : S1x640000.ShapeCasts S640000
  concatenates_S640000_S100000_S740000_d0 : Shape.Concatenates [S640000, S100000] S740000 0
  slices_S2x640000_S1x640000_1_0 : S2x640000.Slices ![1, 0] S1x640000
  bcast_S_S740000 : S_.BroadcastsInDim S740000 (![] : Fin 0 → Fin S740000.rank)
  bcast_S_S100000 : S_.BroadcastsInDim S100000 (![] : Fin 0 → Fin S100000.rank)
  bcast_S740000_S740000x1_0 : S740000.BroadcastsInDim S740000x1 (![0] : Fin 1 → Fin S740000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S740000x1_S740000x128_0_1 : S740000x1.BroadcastsInDim S740000x128 (![0, 1] : Fin 2 → Fin S740000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  dot_S10000x128_S128x128_S10000x128_1_0_0_1_n_n_wf : DotDims.WF S10000x128 S128x128 S10000x128 [1] [0] [0] [1] [] []
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)

variable [Facts₀]

def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S100000 : Shape := ⟨1, ![100000]⟩
abbrev S1x640000 : Shape := ⟨2, ![1, 640000]⟩
abbrev S640000 : Shape := ⟨1, ![640000]⟩
abbrev S740000 : Shape := ⟨1, ![740000]⟩
abbrev S_ : Shape := ⟨0, ![]⟩
abbrev S740000x1 : Shape := ⟨2, ![740000, 1]⟩
abbrev S740000x128 : Shape := ⟨2, ![740000, 128]⟩
abbrev S1x128 : Shape := ⟨2, ![1, 128]⟩

abbrev nBuf : Space → Nat
  | .hbm => 114
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S100000, .i32⟩
  | .hbm, ⟨7, _⟩ => ⟨S1x640000, .i32⟩
  | .hbm, ⟨8, _⟩ => ⟨S640000, .i32⟩
  | .hbm, ⟨9, _⟩ => ⟨S740000, .i32⟩
  | .hbm, ⟨10, _⟩ => ⟨S1x640000, .i32⟩
  | .hbm, ⟨11, _⟩ => ⟨S640000, .i32⟩
  | .hbm, ⟨12, _⟩ => ⟨S740000, .i32⟩
  | .hbm, ⟨13, _⟩ => ⟨S_, .f32⟩
  | .hbm, ⟨14, _⟩ => ⟨S740000, .f32⟩
  | .hbm, ⟨15, _⟩ => ⟨S_, .f32⟩
  | .hbm, ⟨16, _⟩ => ⟨S100000, .f32⟩
  | .hbm, ⟨17, _⟩ => ⟨S740000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x128, .f32⟩
  | .hbm, ⟨31, _⟩ => ⟨S_, .i32⟩
  | .hbm, ⟨32, _⟩ => ⟨S740000, .i32⟩
  | .hbm, ⟨33, _⟩ => ⟨S740000, .i1⟩
  | .hbm, ⟨34, _⟩ => ⟨S_, .i32⟩
  | .hbm, ⟨35, _⟩ => ⟨S740000, .i32⟩
  | .hbm, ⟨36, _⟩ => ⟨S740000, .i32⟩
  | .hbm, ⟨37, _⟩ => ⟨S740000, .i32⟩
  | .hbm, ⟨38, _⟩ => ⟨S740000x1, .i32⟩
  | .hbm, ⟨39, _⟩ => ⟨S740000, .f32⟩
  | .hbm, ⟨40, _⟩ => ⟨S_, .i32⟩
  | .hbm, ⟨41, _⟩ => ⟨S740000, .i32⟩
  | .hbm, ⟨42, _⟩ => ⟨S740000, .i1⟩
  | .hbm, ⟨43, _⟩ => ⟨S_, .i32⟩
  | .hbm, ⟨44, _⟩ => ⟨S740000, .i32⟩
  | .hbm, ⟨45, _⟩ => ⟨S740000, .i32⟩
  | .hbm, ⟨46, _⟩ => ⟨S740000, .i32⟩
  | .hbm, ⟨47, _⟩ => ⟨S740000x1, .i32⟩
  | .hbm, ⟨48, _⟩ => ⟨S740000, .f32⟩
  | .hbm, ⟨49, _⟩ => ⟨S740000, .f32⟩
  | .hbm, ⟨50, _⟩ => ⟨S_, .i32⟩
  | .hbm, ⟨51, _⟩ => ⟨S740000, .i32⟩
  | .hbm, ⟨52, _⟩ => ⟨S740000, .i1⟩
  | .hbm, ⟨53, _⟩ => ⟨S_, .i32⟩
  | .hbm, ⟨54, _⟩ => ⟨S740000, .i32⟩
  | .hbm, ⟨55, _⟩ => ⟨S740000, .i32⟩
  | .hbm, ⟨56, _⟩ => ⟨S740000, .i32⟩
  | .hbm, ⟨57, _⟩ => ⟨S740000x1, .i32⟩
  | .hbm, ⟨58, _⟩ => ⟨S740000x128, .f32⟩
  | .hbm, ⟨59, _⟩ => ⟨S740000x1, .f32⟩
  | .hbm, ⟨60, _⟩ => ⟨S740000x128, .f32⟩
  | .hbm, ⟨61, _⟩ => ⟨S740000x128, .f32⟩
  | .hbm, ⟨62, _⟩ => ⟨S_, .f32⟩
  | .hbm, ⟨63, _⟩ => ⟨S100000x128, .f32⟩
  | .hbm, ⟨64, _⟩ => ⟨S740000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S_, .i32⟩
  | .hbm, ⟨74, _⟩ => ⟨S740000, .i32⟩
  | .hbm, ⟨75, _⟩ => ⟨S740000, .i1⟩
  | .hbm, ⟨76, _⟩ => ⟨S_, .i32⟩
  | .hbm, ⟨77, _⟩ => ⟨S740000, .i32⟩
  | .hbm, ⟨78, _⟩ => ⟨S740000, .i32⟩
  | .hbm, ⟨79, _⟩ => ⟨S740000, .i32⟩
  | .hbm, ⟨80, _⟩ => ⟨S740000x1, .i32⟩
  | .hbm, ⟨81, _⟩ => ⟨S740000, .f32⟩
  | .hbm, ⟨82, _⟩ => ⟨S_, .i32⟩
  | .hbm, ⟨83, _⟩ => ⟨S740000, .i32⟩
  | .hbm, ⟨84, _⟩ => ⟨S740000, .i1⟩
  | .hbm, ⟨85, _⟩ => ⟨S_, .i32⟩
  | .hbm, ⟨86, _⟩ => ⟨S740000, .i32⟩
  | .hbm, ⟨87, _⟩ => ⟨S740000, .i32⟩
  | .hbm, ⟨88, _⟩ => ⟨S740000, .i32⟩
  | .hbm, ⟨89, _⟩ => ⟨S740000x1, .i32⟩
  | .hbm, ⟨90, _⟩ => ⟨S740000, .f32⟩
  | .hbm, ⟨91, _⟩ => ⟨S740000, .f32⟩
  | .hbm, ⟨92, _⟩ => ⟨S_, .i32⟩
  | .hbm, ⟨93, _⟩ => ⟨S740000, .i32⟩
  | .hbm, ⟨94, _⟩ => ⟨S740000, .i1⟩
  | .hbm, ⟨95, _⟩ => ⟨S_, .i32⟩
  | .hbm, ⟨96, _⟩ => ⟨S740000, .i32⟩
  | .hbm, ⟨97, _⟩ => ⟨S740000, .i32⟩
  | .hbm, ⟨98, _⟩ => ⟨S740000, .i32⟩
  | .hbm, ⟨99, _⟩ => ⟨S740000x1, .i32⟩
  | .hbm, ⟨100, _⟩ => ⟨S740000x128, .f32⟩
  | .hbm, ⟨101, _⟩ => ⟨S740000x1, .f32⟩
  | .hbm, ⟨102, _⟩ => ⟨S740000x128, .f32⟩
  | .hbm, ⟨103, _⟩ => ⟨S740000x128, .f32⟩
  | .hbm, ⟨104, _⟩ => ⟨S_, .f32⟩
  | .hbm, ⟨105, _⟩ => ⟨S100000x128, .f32⟩
  | .hbm, ⟨106, _⟩ => ⟨S740000x1, .i32⟩
  | .hbm, ⟨107, _⟩ => ⟨S100000x128, .f32⟩
  | .hbm, ⟨108, _⟩ => ⟨S1x128, .f32⟩
  | .hbm, ⟨109, _⟩ => ⟨S100000x128, .f32⟩
  | .hbm, ⟨110, _⟩ => ⟨S100000x128, .f32⟩
  | .hbm, ⟨111, _⟩ => ⟨S_, .f32⟩
  | .hbm, ⟨112, _⟩ => ⟨S100000x128, .f32⟩
  | .hbm, ⟨113, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_c_13 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_c_15 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_16 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_call2_cst : Ref sig .tc := ⟨.hbm, 111, rfl⟩
abbrev main_call2_v0 : Ref sig .tc := ⟨.hbm, 112, rfl⟩
abbrev main_v82 : Ref sig .tc := ⟨.hbm, 113, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S100000_S740000_d0 : Shape.Concatenates [S640000, S100000] S740000 0
  slices_S2x640000_S1x640000_1_0 : S2x640000.Slices ![1, 0] S1x640000
  bcast_S_S740000 : S_.BroadcastsInDim S740000 (![] : Fin 0 → Fin S740000.rank)
  bcast_S_S100000 : S_.BroadcastsInDim S100000 (![] : Fin 0 → Fin S100000.rank)
  bcast_S740000_S740000x1_0 : S740000.BroadcastsInDim S740000x1 (![0] : Fin 1 → Fin S740000x1.rank)
  bcast_S740000x1_S740000x128_0_1 : S740000x1.BroadcastsInDim S740000x128 (![0, 1] : Fin 2 → Fin S740000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S740000x1_S740000_n_0_0_1_wf : ScatterDims.WF S100000 S740000x1 S740000 [] [0] [0] 1
  dot_S100000x128_S128x128_S100000x128_1_0_0_1_n_n_wf : DotDims.WF S100000x128 S128x128 S100000x128 [1] [0] [0] [1] [] []
  gather_S100000_S740000x1_S740000_n_0_n_n_0_1_1_wf : GatherDims.WF S100000 S740000x1 S740000 [] [0] [] [0] [] 1 ![1]
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1

variable [Facts₀]

def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf

class Facts : Prop extends Facts₀ where

variable [Facts]
-- ==== Proof.GlueRef.lean ====
/-
  The reference program read as a composition of named stages: the graph side (edge list with self loops, degree
  normalisation, message passing — the same host operations the kernel program applies, carried as opaque functions)
  around the two dense stages of each layer (a dot product; bias and rectifier).  The reference's run states its result
  as one long term of the arguments; that term is this composition, by unfolding the names.
-/
import proofs.«166285_j32375463477659_1_alg».proof.Proof.RefRunPatched

noncomputable section

namespace Cert.ReferenceIdeal.Glue

open Cert.ReferenceIdeal Cert.ReferenceIdeal.Gen Idealize.ShloMosaic

variable {F : FTy → Type} [FloatOps F]

/-- One row of the edge list (row `r` of the [2, 640000] array) followed by the self loops `0 … 99999`. -/
def endpoints0 (ei : (⟨S2x640000, .i32⟩ : BufTy).Contents (Elt F)) : (⟨S740000, .i32⟩ : BufTy).Contents (Elt F) :=
  concatenate S740000 0 [⟨S640000, (shapeCast _ (extractStridedSlice S1x640000 ![0, 0] ei slices_S2x640000_S1x640000_0_0) shapeCasts_S1x640000_S640000)⟩, ⟨S100000, (iotaInDim S100000 32 0)⟩] concatenates_S640000_S100000_S740000_d0

def endpoints1 (ei : (⟨S2x640000, .i32⟩ : BufTy).Contents (Elt F)) : (⟨S740000, .i32⟩ : BufTy).Contents (Elt F) :=
  concatenate S740000 0 [⟨S640000, (shapeCast _ (extractStridedSlice S1x640000 ![1, 0] ei slices_S2x640000_S1x640000_1_0) shapeCasts_S1x640000_S640000)⟩, ⟨S100000, (iotaInDim S100000 32 0)⟩] concatenates_S640000_S100000_S740000_d0

/-- jnp's index normalisation (a negative index counts from the end), as a column of start indices for a gather. -/
def wrapIdx (v : (⟨S740000, .i32⟩ : BufTy).Contents (Elt F)) : (⟨S740000x1, .i32⟩ : BufTy).Contents (Elt F) :=
  broadcastInDim S740000x1 ![0] bcast_S740000_S740000x1_0 (select (cmpi .slt v (broadcastInDim S740000 ![] bcast_S_S740000 (constantI S_ 32 0#32))) (addi v (broadcastInDim S740000 ![] bcast_S_S740000 (constantI S_ 32 100000#32))) v)

/-- The in-degree of every node: ones summed at the edges' destinations. -/
def degree (col : (⟨S740000, .i32⟩ : BufTy).Contents (Elt F)) : (⟨S100000, .f32⟩ : BufTy).Contents (Elt F) :=
  Host.scatterAdd scatter_S100000_S740000x1_S740000_n_0_0_1 (broadcastInDim S100000 ![] bcast_S_S100000 (constant S_ .f32 0x00000000#32)) (broadcastInDim S740000x1 ![0] bcast_S740000_S740000x1_0 col) (broadcastInDim S740000 ![] bcast_S_S740000 (constant S_ .f32 0x3F800000#32))

/-- `deg^(-1/2)` where the degree is positive, zero elsewhere. -/
def degInvSqrt (col : (⟨S740000, .i32⟩ : BufTy).Contents (Elt F)) : (⟨S100000, .f32⟩ : BufTy).Contents (Elt F) :=
  select (cmpf (F := F) .ogt (degree col) (broadcastInDim S100000 ![] bcast_S_S100000 (constant S_ .f32 0x00000000#32))) (Host.rsqrt (maximumf (degree col) (broadcastInDim S100000 ![] bcast_S_S100000 (constant S_ .f32 0x2B8CBCCC#32)))) (broadcastInDim S100000 ![] bcast_S_S100000 (id (constant S_ .f32 0x00000000#32)))

/-- The symmetric normalisation of every edge: the two endpoints' `deg^(-1/2)` multiplied. -/
def edgeNorm (row col : (⟨S740000, .i32⟩ : BufTy).Contents (Elt F)) : (⟨S740000, .f32⟩ : BufTy).Contents (Elt F) :=
  mulf (Host.gather gather_S100000_S740000x1_S740000_n_0_n_n_0_1_1 (degInvSqrt col) (wrapIdx row)) (Host.gather gather_S100000_S740000x1_S740000_n_0_n_n_0_1_1 (degInvSqrt col) (wrapIdx col))

/-- Message passing: every edge carries its source's feature row scaled by the edge's normalisation, and the messages
    are summed at the destinations. -/
def aggregate (row col : (⟨S740000, .i32⟩ : BufTy).Contents (Elt F)) (nrm : (⟨S740000, .f32⟩ : BufTy).Contents (Elt F))
    (h : (⟨S100000x128, .f32⟩ : BufTy).Contents (Elt F)) : (⟨S100000x128, .f32⟩ : BufTy).Contents (Elt F) :=
  Host.scatterAdd scatter_S100000x128_S740000x1_S740000x128_1_0_0_1 (broadcastInDim S100000x128 ![] bcast_S_S100000x128 (constant S_ .f32 0x00000000#32)) (broadcastInDim S740000x1 ![0] bcast_S740000_S740000x1_0 col) (mulf (Host.gather gather_S100000x128_S740000x1_S740000x128_1_0_n_n_0_1_1128 h (wrapIdx row)) (broadcastInDim S740000x128 ![0, 1] bcast_S740000x1_S740000x128_0_1 (broadcastInDim S740000x1 ![0] bcast_S740000_S740000x1_0 nrm)))

/-- The host's dense stage after aggregation: bias on every row, rectifier. -/
def hostLayer (a : (⟨S100000x128, .f32⟩ : BufTy).Contents (Elt F)) (b : (⟨S128, .f32⟩ : BufTy).Contents (Elt F)) :
    (⟨S100000x128, .f32⟩ : BufTy).Contents (Elt F) :=
  maximumf (addf a (broadcastInDim S100000x128 ![0, 1] bcast_S1x128_S100000x128_0_1 (broadcastInDim S1x128 ![1] bcast_S128_S1x128_1 b))) (broadcastInDim S100000x128 ![] bcast_S_S100000x128 (constant S_ .f32 0x00000000#32))

/-- The reference: two layers of dot product, message passing, bias and rectifier. -/
def gcn (x : (⟨S100000x128, .f32⟩ : BufTy).Contents (Elt F)) (ei : (⟨S2x640000, .i32⟩ : BufTy).Contents (Elt F))
    (w1 : (⟨S128x128, .f32⟩ : BufTy).Contents (Elt F)) (b1 : (⟨S128, .f32⟩ : BufTy).Contents (Elt F))
    (w2 : (⟨S128x128, .f32⟩ : BufTy).Contents (Elt F)) (b2 : (⟨S128, .f32⟩ : BufTy).Contents (Elt F)) :
    (⟨S100000x128, .f32⟩ : BufTy).Contents (Elt F) :=
  hostLayer (aggregate (endpoints0 ei) (endpoints1 ei) (edgeNorm (endpoints0 ei) (endpoints1 ei))
    (Host.dotGeneral dot_S100000x128_S128x128_S100000x128_1_0_0_1_n_n none
      (hostLayer (aggregate (endpoints0 ei) (endpoints1 ei) (edgeNorm (endpoints0 ei) (endpoints1 ei))
        (Host.dotGeneral dot_S100000x128_S128x128_S100000x128_1_0_0_1_n_n none x w1)) b1) w2)) b2

open Idealize.ShloMosaic.TcCoe Idealize.SL.Sem in
/-- The run's result term is the composition. -/
theorem res_eq (m : (ℓ : Loc nD τ sig) → Buf (Elt F) ℓ) (c : Dev nD) :
    Cert.ReferenceIdeal.ValueP.res_main_v82 m c
      = gcn (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.ValueP.res_main_v82 gcn hostLayer aggregate edgeNorm degInvSqrt degree wrapIdx endpoints0 endpoints1
  rfl

end Cert.ReferenceIdeal.Glue

end
-- ==== Proof.KernelRun.lean ====
/-
  The kernel program's run with its result named.  Every weakly fair execution of the program terminates without a
  fault; at the end each unscoped buffer holds what the fold through the program's segments (host stretches and the
  four pipelined regions) leaves in it.  Read at the six argument arrays this gives the frame; read also at the result
  array it says that the result is the fold's value there, which the value lemmas then compute.
-/
import proofs.«166285_j32375463477659_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array ends at the last boundary's contents there, the arguments as launched. -/
theorem run_result : θ_run defs (onTc (τ := τ) (main (F := F))) ⟨m, fun _ => 0, ρ⟩ (fun r => ∀ c : Dev nD,
      r.2.mem ((c.tc : Thread nD τ).loc main_v63) = W9 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v63 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Hand

end
-- ==== Proof.GlueKernel.lean ====
/-
  The graph side of the two-layer graph convolution, as the kernel program's host operations spell it: the edge list
  with self loops appended, the degree normalisation of every edge, and the message-passing step that gathers
  feature rows at the edges' sources, scales them and sums them at the destinations.  These are carried as opaque
  functions: both programs apply the same ones, so the certificate never opens a gather or a scatter.
-/
import proofs.«166285_j32375463477659_1_alg».proof.Proof.Gen.KernelIdeal

noncomputable section

namespace Cert.KernelIdeal.Glue

open Cert.KernelIdeal Cert.KernelIdeal.Gen Idealize.ShloMosaic

variable {F : FTy → Type} [FloatOps F]

/-- One row of the edge list (row `r` of the [2, 640000] array) followed by the self loops `0 … 99999`. -/
def endpoints0 (ei : (⟨S2x640000, .i32⟩ : BufTy).Contents (Elt F)) : (⟨S740000, .i32⟩ : BufTy).Contents (Elt F) :=
  concatenate S740000 0 [⟨S640000, (shapeCast _ (extractStridedSlice S1x640000 ![0, 0] ei slices_S2x640000_S1x640000_0_0) shapeCasts_S1x640000_S640000)⟩, ⟨S100000, (iotaInDim S100000 32 0)⟩] concatenates_S640000_S100000_S740000_d0

def endpoints1 (ei : (⟨S2x640000, .i32⟩ : BufTy).Contents (Elt F)) : (⟨S740000, .i32⟩ : BufTy).Contents (Elt F) :=
  concatenate S740000 0 [⟨S640000, (shapeCast _ (extractStridedSlice S1x640000 ![1, 0] ei slices_S2x640000_S1x640000_1_0) shapeCasts_S1x640000_S640000)⟩, ⟨S100000, (iotaInDim S100000 32 0)⟩] concatenates_S640000_S100000_S740000_d0

/-- jnp's index normalisation (a negative index counts from the end), as a column of start indices for a gather. -/
def wrapIdx (v : (⟨S740000, .i32⟩ : BufTy).Contents (Elt F)) : (⟨S740000x1, .i32⟩ : BufTy).Contents (Elt F) :=
  broadcastInDim S740000x1 ![0] bcast_S740000_S740000x1_0 (select (cmpi .slt v (broadcastInDim S740000 ![] bcast_S_S740000 (constantI S_ 32 0#32))) (addi v (broadcastInDim S740000 ![] bcast_S_S740000 (constantI S_ 32 100000#32))) v)

/-- The in-degree of every node: ones summed at the edges' destinations. -/
def degree (col : (⟨S740000, .i32⟩ : BufTy).Contents (Elt F)) : (⟨S100000, .f32⟩ : BufTy).Contents (Elt F) :=
  Host.scatterAdd scatter_S100000_S740000x1_S740000_n_0_0_1 (broadcastInDim S100000 ![] bcast_S_S100000 (constant S_ .f32 0x00000000#32)) (broadcastInDim S740000x1 ![0] bcast_S740000_S740000x1_0 col) (broadcastInDim S740000 ![] bcast_S_S740000 (constant S_ .f32 0x3F800000#32))

/-- `deg^(-1/2)` where the degree is positive, zero elsewhere. -/
def degInvSqrt (col : (⟨S740000, .i32⟩ : BufTy).Contents (Elt F)) : (⟨S100000, .f32⟩ : BufTy).Contents (Elt F) :=
  select (cmpf (F := F) .ogt (degree col) (broadcastInDim S100000 ![] bcast_S_S100000 (constant S_ .f32 0x00000000#32))) (Host.rsqrt (maximumf (degree col) (broadcastInDim S100000 ![] bcast_S_S100000 (constant S_ .f32 0x2B8CBCCC#32)))) (broadcastInDim S100000 ![] bcast_S_S100000 (id (constant S_ .f32 0x00000000#32)))

/-- The symmetric normalisation of every edge: the two endpoints' `deg^(-1/2)` multiplied. -/
def edgeNorm (row col : (⟨S740000, .i32⟩ : BufTy).Contents (Elt F)) : (⟨S740000, .f32⟩ : BufTy).Contents (Elt F) :=
  mulf (Host.gather gather_S100000_S740000x1_S740000_n_0_n_n_0_1_1 (degInvSqrt col) (wrapIdx row)) (Host.gather gather_S100000_S740000x1_S740000_n_0_n_n_0_1_1 (degInvSqrt col) (wrapIdx col))

/-- Message passing: every edge carries its source's feature row scaled by the edge's normalisation, and the messages
    are summed at the destinations. -/
def aggregate (row col : (⟨S740000, .i32⟩ : BufTy).Contents (Elt F)) (nrm : (⟨S740000, .f32⟩ : BufTy).Contents (Elt F))
    (h : (⟨S100000x128, .f32⟩ : BufTy).Contents (Elt F)) : (⟨S100000x128, .f32⟩ : BufTy).Contents (Elt F) :=
  Host.scatterAdd scatter_S100000x128_S740000x1_S740000x128_1_0_0_1 (broadcastInDim S100000x128 ![] bcast_S_S100000x128 (constant S_ .f32 0x00000000#32)) (broadcastInDim S740000x1 ![0] bcast_S740000_S740000x1_0 col) (mulf (Host.gather gather_S100000x128_S740000x1_S740000x128_1_0_n_n_0_1_1128 h (wrapIdx row)) (broadcastInDim S740000x128 ![0, 1] bcast_S740000x1_S740000x128_0_1 (broadcastInDim S740000x1 ![0] bcast_S740000_S740000x1_0 nrm)))

end Cert.KernelIdeal.Glue

end
-- ==== Proof.KernelChain.lean ====
/-
  The kernel program's host stretches, read at the buffers the value lemmas need.  Between its four regions the
  program computes, on the host: the edge list with self loops and the edges' normalisation (before region 0), and after
  regions 0 and 2 the message passing of that region's product and the bias vector as a one-row array.  Each lemma says
  what one buffer holds at a segment boundary as a function of what earlier boundaries hold; the graph-side operations
  stay folded in the named functions of the glue module.
-/
import proofs.«166285_j32375463477659_1_alg».proof.Proof.Gen.KernelIdeal.Frame
import proofs.«166285_j32375463477659_1_alg».proof.Proof.GlueKernel
import Idealize.ShloMosaic.Lib.StableHlo.Run

set_option maxRecDepth 16384

noncomputable section

namespace Cert.KernelIdeal.Chain

open Cert.KernelIdeal Cert.KernelIdeal.Gen Cert.KernelIdeal.Glue
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## Before region 0 -/

/-- The edges' sources, self loops appended. -/
theorem W3_row (c : Dev nD) :
    W3 m ρ c (Proc.devRef .tc main_v3) = endpoints0 (m ((c : Thread nD τ).loc main_arg1)) := by
  show StableHlo.after hostOps0_2 (StableHlo.after hostOps0_1 (StableHlo.after hostOps0 (W0 m ρ c))) (Proc.devRef .tc main_v3) = _
  simp only [hostOps0_2, hostOps0_1, hostOps0]
  after_results_simp
  rfl

/-- The edges' destinations, self loops appended. -/
theorem W3_col (c : Dev nD) :
    W3 m ρ c (Proc.devRef .tc main_v6) = endpoints1 (m ((c : Thread nD τ).loc main_arg1)) := by
  show StableHlo.after hostOps0_2 (StableHlo.after hostOps0_1 (StableHlo.after hostOps0 (W0 m ρ c))) (Proc.devRef .tc main_v6) = _
  simp only [hostOps0_2, hostOps0_1, hostOps0]
  after_results_simp
  rfl

/-- The edges' normalisation. -/
theorem W3_norm (c : Dev nD) :
    W3 m ρ c (Proc.devRef .tc main_v31)
      = edgeNorm (endpoints0 (m ((c : Thread nD τ).loc main_arg1))) (endpoints1 (m ((c : Thread nD τ).loc main_arg1))) := by
  show StableHlo.after hostOps0_2 (StableHlo.after hostOps0_1 (StableHlo.after hostOps0 (W0 m ρ c))) (Proc.devRef .tc main_v31) = _
  simp only [hostOps0_2, hostOps0_1, hostOps0]
  after_results_simp
  rfl

/-- No host operation before region 0 writes argument 0. -/
theorem W3_arg0 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  simp only [hostOps0_2, hostOps0_1, hostOps0]
  after_results_simp

/-- No host operation before region 0 writes argument 1. -/
theorem W3_arg1 (c : Dev nD) : W3 m ρ c (Proc.devRef .tc main_arg1) = m ((c : Thread nD τ).loc main_arg1) := by
  show StableHlo.after hostOps0_2 (StableHlo.after hostOps0_1 (StableHlo.after hostOps0 (W0 m ρ c))) (Proc.devRef .tc main_arg1) = _
  simp only [hostOps0_2, hostOps0_1, hostOps0]
  after_results_simp

/-- No host operation before region 0 writes argument 2. -/
theorem W3_arg2 (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  simp only [hostOps0_2, hostOps0_1, hostOps0]
  after_results_simp

/-- No host operation before region 0 writes argument 3. -/
theorem W3_arg3 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  simp only [hostOps0_2, hostOps0_1, hostOps0]
  after_results_simp

/-- No host operation before region 0 writes argument 4. -/
theorem W3_arg4 (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  simp only [hostOps0_2, hostOps0_1, hostOps0]
  after_results_simp

/-- No host operation before region 0 writes argument 5. -/
theorem W3_arg5 (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  simp only [hostOps0_2, hostOps0_1, hostOps0]
  after_results_simp

/-! ## Between regions 0 and 1 -/

/-- Message passing of region 0's product. -/
theorem W5_agg (c : Dev nD) :
    W5 m ρ c (Proc.devRef .tc main_v45)
      = aggregate (W4 m ρ c (Proc.devRef .tc main_v3)) (W4 m ρ c (Proc.devRef .tc main_v6)) (W4 m ρ c (Proc.devRef .tc main_v31)) (W4 m ρ c (Proc.devRef .tc main_v32)) := by
  show StableHlo.after hostOps1 (W4 m ρ c) (Proc.devRef .tc main_v45) = _
  simp only [hostOps1]
  after_results_simp
  rfl

/-- The first bias vector as a one-row array. -/
theorem W5_bias (c : Dev nD) :
    W5 m ρ c (Proc.devRef .tc main_v46) = shapeCast S1x128 (W4 m ρ c (Proc.devRef .tc main_arg3)) shapeCasts_S128_S1x128 := by
  show StableHlo.after hostOps1 (W4 m ρ c) (Proc.devRef .tc main_v46) = _
  simp only [hostOps1]
  after_results_simp
  rfl

theorem W5_keep_main_v3 (c : Dev nD) : W5 m ρ c (Proc.devRef .tc main_v3) = W4 m ρ c (Proc.devRef .tc main_v3) := by
  show StableHlo.after hostOps1 (W4 m ρ c) (Proc.devRef .tc main_v3) = _
  simp only [hostOps1]
  after_results_simp

theorem W5_keep_main_v6 (c : Dev nD) : W5 m ρ c (Proc.devRef .tc main_v6) = W4 m ρ c (Proc.devRef .tc main_v6) := by
  show StableHlo.after hostOps1 (W4 m ρ c) (Proc.devRef .tc main_v6) = _
  simp only [hostOps1]
  after_results_simp

theorem W5_keep_main_v31 (c : Dev nD) : W5 m ρ c (Proc.devRef .tc main_v31) = W4 m ρ c (Proc.devRef .tc main_v31) := by
  show StableHlo.after hostOps1 (W4 m ρ c) (Proc.devRef .tc main_v31) = _
  simp only [hostOps1]
  after_results_simp

theorem W5_keep_main_arg4 (c : Dev nD) : W5 m ρ c (Proc.devRef .tc main_arg4) = W4 m ρ c (Proc.devRef .tc main_arg4) := by
  show StableHlo.after hostOps1 (W4 m ρ c) (Proc.devRef .tc main_arg4) = _
  simp only [hostOps1]
  after_results_simp

theorem W5_keep_main_arg5 (c : Dev nD) : W5 m ρ c (Proc.devRef .tc main_arg5) = W4 m ρ c (Proc.devRef .tc main_arg5) := by
  show StableHlo.after hostOps1 (W4 m ρ c) (Proc.devRef .tc main_arg5) = _
  simp only [hostOps1]
  after_results_simp

/-! ## Between regions 2 and 3 -/

/-- Message passing of region 2's product. -/
theorem W8_agg (c : Dev nD) :
    W8 m ρ c (Proc.devRef .tc main_v61)
      = aggregate (W7 m ρ c (Proc.devRef .tc main_v3)) (W7 m ρ c (Proc.devRef .tc main_v6)) (W7 m ρ c (Proc.devRef .tc main_v31)) (W7 m ρ c (Proc.devRef .tc main_v48)) := by
  show StableHlo.after hostOps3 (W7 m ρ c) (Proc.devRef .tc main_v61) = _
  simp only [hostOps3]
  after_results_simp
  rfl

/-- The second bias vector as a one-row array. -/
theorem W8_bias (c : Dev nD) :
    W8 m ρ c (Proc.devRef .tc main_v62) = shapeCast S1x128 (W7 m ρ c (Proc.devRef .tc main_arg5)) shapeCasts_S128_S1x128 := by
  show StableHlo.after hostOps3 (W7 m ρ c) (Proc.devRef .tc main_v62) = _
  simp only [hostOps3]
  after_results_simp
  rfl

end Cert.KernelIdeal.Chain

end
-- ==== Proof.LibDenseLayer.lean ====
/-
  Dense layers over the extended reals, read one output element at a time.

  A dense layer sends a row `h` (length `K`) to the row whose entry `n` is `∑ k, h k * W k n + b n`; a hidden layer
  then rectifies and masks it: entry `n` becomes `max y 0 * m n`.  This file states those row functions and proves, for
  any extents `R`, `K`, `N`, that the vector-level operations computing a layer on an `[R, K]` block —
  a matrix product into a zero accumulator (or a host dot product) over the plain `[R,K] × [K,N]` dimension numbers,
  a bias row broadcast over the rows, and either `select (y > 0) (y * m) 0` or `max y 0 * m` — read at entry `(p, q)`
  are the row function of row `p` of the operands, at `q`.  The two rectifier spellings agree on every extended real:
  for `y ≤ 0` both are `0` because `0 * m = 0` whatever `m` is.
-/
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.DenseLayer

/-! ## The row functions -/

/-- Entry `n` of a dense layer's output row: the input row against column `n` of the weights, plus the bias. -/
def dense {K N : ℕ} (h : Fin K → EReal) (W : Fin K → Fin N → EReal) (b : Fin N → EReal) : Fin N → EReal :=
  fun n => (∑ k : Fin K, h k * W k n) + b n

/-- Rectify, then scale by the mask entry. -/
def act (y m : EReal) : EReal := max y 0 * m

/-- A hidden layer's output row: dense, rectified, masked. -/
def layer {K N : ℕ} (h : Fin K → EReal) (W : Fin K → Fin N → EReal) (b : Fin N → EReal) (m : Fin N → EReal) :
    Fin N → EReal :=
  fun n => act (dense h W b n) (m n)

/-- Choosing `y * m` where `y > 0` and `0` elsewhere is `max y 0 * m`: where `y ≤ 0` the product `0 * m` is `0`. -/
theorem select_gt_eq_act (y m : EReal) : Scalar.select (Ideal.cmp .ogt y 0) (y * m) 0 = act y m := by
  unfold act Scalar.select Ideal.cmp
  by_cases h : (0 : EReal) < y
  · simp [h, max_eq_left h.le]
  · simp [h, max_eq_right (not_lt.mp h)]

/-! ## The plain matrix product read at an entry -/

/-- Over the plain dimension numbers the contraction index is the one coordinate `k`, the left operand is read at
    `(p, k)` and the right at `(k, q)`. -/
theorem plain_sum {M K N : ℕ} (a : (⟨2, ![M, K]⟩ : Shape).Idx → EReal) (b : (⟨2, ![K, N]⟩ : Shape).Idx → EReal)
    (p : Fin M) (q : Fin N) :
    ∑ k : (DotDims.plain M K N).contr.Idx,
        a ((DotDims.plain M K N).lhsIdx (ix2 p q) k) * b ((DotDims.plain M K N).rhsIdx (ix2 p q) k)
      = ∑ k : Fin K, a (ix2 p k) * b (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact hk)
  have er : (DotDims.plain M K N).rhsIdx (ix2 p q) ((contrEquiv1 (DotDims.plain M K N) K rfl rfl).symm k) = ix2 k q :=
    funext fun a => Fin.ext (by
      match a with
      | ⟨0, _⟩ => exact hk
      | ⟨1, _⟩ => rfl)
  rw [el, er]

/-- A matrix product into the zero accumulator, over dimension numbers that are the plain ones, at entry `(p, q)`. -/
theorem matmul_plain_apply {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (b : FVec Ideal ⟨2, ![K, N]⟩ φ₂) (p : Fin R) (q : Fin N) :
    matmul d prec a b (constant ⟨2, ![R, N]⟩ .f32 0x00000000#32) (ix2 p q) = ∑ k : Fin K, a (ix2 p k) * b (ix2 k q) := by
  subst hd
  show FloatOps.matmul _ prec a b (constant ⟨2, ![R, N]⟩ .f32 0x00000000#32) (ix2 p q) = _
  rw [Ideal.matmul_constant_zero_apply]
  exact plain_sum a b p q

/-- The host's dot product over the plain dimension numbers, at entry `(p, q)`. -/
theorem dotGeneral_plain_apply {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (b : FVec Ideal ⟨2, ![K, N]⟩ φ₂) (p : Fin R) (q : Fin N) :
    Host.dotGeneral d prec a b (ix2 p q) = ∑ k : Fin K, a (ix2 p k) * b (ix2 k q) := by
  subst hd
  simp only [Host.dotGeneral]
  rw [Ideal.dotGeneral_apply]
  exact plain_sum a b p q

/-! ## The bias row -/

/-- A bias vector cast to one row and broadcast over `R` rows reads `b q` at `(p, q)`. -/
theorem bias_rows_apply {α : Type} {R N : ℕ} (b : (⟨1, ![N]⟩ : Shape).Idx → α)
    (sc : (⟨1, ![N]⟩ : Shape).ShapeCasts ⟨2, ![1, N]⟩) (bc : (⟨2, ![1, N]⟩ : Shape).Broadcasts ⟨2, ![R, N]⟩)
    (p : Fin R) (q : Fin N) :
    broadcastTo ⟨2, ![R, N]⟩ (shapeCast ⟨2, ![1, N]⟩ b sc) bc (ix2 p q) = b (ix1 q) :=
  (broadcastTo_1b_ab_apply _ bc p q).trans (shapeCast_a_1a_apply b sc 0 q)

/-- The host's spelling: the vector placed on axis 1 of a one-row array, that row placed on both axes of the
    `[R, N]` array. -/
theorem bias_rows_host_apply {α : Type} {R N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![R, N]⟩ ![0, 1]) (p : Fin R) (q : Fin N) :
    broadcastInDim ⟨2, ![R, N]⟩ ![0, 1] h2 (broadcastInDim ⟨2, ![1, N]⟩ ![1] h1 b) (ix2 p q) = b (ix1 q) := by
  have hq : q.val = if N = 1 then 0 else q.val := by
    split
    · have := q.isLt; omega
    · rfl
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ => exact hq
  · match a with
    | ⟨0, _⟩ => exact hq

/-! ## Rectifier and mask -/

/-- The kernel's spelling, at any entry: `y * m` where `y` exceeds the zero splat, the zero splat elsewhere. -/
theorem select_gt_apply {s : Shape} (y m : FVec Ideal s .f32) (i : s.Idx) :
    select (cmpf .ogt y (broadcast s (Scalar.ofBits .f32 0x00000000#32))) (mulf y m)
        (broadcast s (Scalar.ofBits .f32 0x00000000#32)) i = act (y i) (m i) := by
  show Scalar.select (Ideal.cmp .ogt (y i) (Ideal.ofBits .f32 0x00000000#32)) (y i * m i) (Ideal.ofBits .f32 0x00000000#32) = _
  rw [Ideal.ofBits_zero_f32]
  exact select_gt_eq_act _ _

/-- The host's spelling, at any entry: the maximum with the zero scalar broadcast to the shape, times the mask. -/
theorem relu_mask_host_apply {s : Shape} (y m : FVec Ideal s .f32) (h0 : (⟨0, ![]⟩ : Shape).BroadcastsInDim s ![])
    (i : s.Idx) :
    mulf (maximumf y (broadcastInDim s ![] h0 (constant (F := Ideal) ⟨0, ![]⟩ .f32 0x00000000#32))) m i = act (y i) (m i) := by
  show max (y i) (broadcastInDim s ![] h0 (constant (F := Ideal) ⟨0, ![]⟩ .f32 0x00000000#32) i) * m i = _
  rw [broadcastInDim_apply _ h0 _ i ix0 (fun a => a.elim0)]
  show max (y i) (Ideal.ofBits .f32 0x00000000#32) * m i = _
  rw [Ideal.ofBits_zero_f32]
  rfl

/-! ## Whole arrays, row by row

  The same layers on `[R, ·]` arrays: entry `(r, n)` of the output depends on row `r` of the row-indexed operands
  only, so a layer computed on a block of rows is that block of rows of the layer computed on the whole arrays. -/

/-- Row `r` of a two-axis array. -/
abbrev row {R C : ℕ} (A : (⟨2, ![R, C]⟩ : Shape).Idx → EReal) (r : Fin R) : Fin C → EReal := fun k => A (ix2 r k)
/-- A two-axis array as a function of its two coordinates. -/
abbrev mat {K N : ℕ} (W : (⟨2, ![K, N]⟩ : Shape).Idx → EReal) : Fin K → Fin N → EReal := fun k n => W (ix2 k n)
/-- A one-axis array as a function of its coordinate. -/
abbrev vec {N : ℕ} (b : (⟨1, ![N]⟩ : Shape).Idx → EReal) : Fin N → EReal := fun n => b (ix1 n)

/-- The dense layer on every row: entry `(r, n)` is `∑ k, H (r, k) * W (k, n) + b n`. -/
def denseArr {R K N : ℕ} (H : (⟨2, ![R, K]⟩ : Shape).Idx → EReal) (W : (⟨2, ![K, N]⟩ : Shape).Idx → EReal)
    (b : (⟨1, ![N]⟩ : Shape).Idx → EReal) : (⟨2, ![R, N]⟩ : Shape).Idx → EReal :=
  fun i => dense (row H ⟨(i 0).val, idx2_lt0 i⟩) (mat W) (vec b) ⟨(i 1).val, idx2_lt1 i⟩

/-- Rectifier and mask, entry by entry. -/
def actArr {s : Shape} (Y M : s.Idx → EReal) : s.Idx → EReal := fun i => act (Y i) (M i)

/-- A hidden layer on every row. -/
def layerArr {R K N : ℕ} (H : (⟨2, ![R, K]⟩ : Shape).Idx → EReal) (W : (⟨2, ![K, N]⟩ : Shape).Idx → EReal)
    (b : (⟨1, ![N]⟩ : Shape).Idx → EReal) (M : (⟨2, ![R, N]⟩ : Shape).Idx → EReal) :
    (⟨2, ![R, N]⟩ : Shape).Idx → EReal :=
  actArr (denseArr H W b) M

theorem denseArr_ix2 {R K N : ℕ} (H : (⟨2, ![R, K]⟩ : Shape).Idx → EReal) (W : (⟨2, ![K, N]⟩ : Shape).Idx → EReal)
    (b : (⟨1, ![N]⟩ : Shape).Idx → EReal) (p : Fin R) (q : Fin N) :
    denseArr H W b (ix2 p q) = dense (row H p) (mat W) (vec b) q := rfl

/-- The kernel's dense step as an array: product into the zero accumulator plus the broadcast bias row. -/
theorem kernel_dense_eq {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (W : FVec Ideal ⟨2, ![K, N]⟩ φ₂) (b : FVec Ideal ⟨1, ![N]⟩ .f32)
    (sc : (⟨1, ![N]⟩ : Shape).ShapeCasts ⟨2, ![1, N]⟩) (bc : (⟨2, ![1, N]⟩ : Shape).Broadcasts ⟨2, ![R, N]⟩) :
    addf (matmul d prec a W (constant ⟨2, ![R, N]⟩ .f32 0x00000000#32))
        (broadcastTo ⟨2, ![R, N]⟩ (shapeCast ⟨2, ![1, N]⟩ b sc) bc) = denseArr a W b := by
  funext i
  obtain ⟨p, q, rfl⟩ : ∃ (p : Fin R) (q : Fin N), i = ix2 p q := ⟨i 0, i 1, eq_ix2 i⟩
  show matmul d prec a W (constant ⟨2, ![R, N]⟩ .f32 0x00000000#32) (ix2 p q)
      + broadcastTo ⟨2, ![R, N]⟩ (shapeCast ⟨2, ![1, N]⟩ b sc) bc (ix2 p q) = _
  rw [matmul_plain_apply d hd, bias_rows_apply]
  rfl

/-- The kernel's rectifier-and-mask as an array. -/
theorem kernel_act_eq {s : Shape} (Y M : FVec Ideal s .f32) :
    select (cmpf .ogt Y (broadcast s (Scalar.ofBits .f32 0x00000000#32))) (mulf Y M)
        (broadcast s (Scalar.ofBits .f32 0x00000000#32)) = actArr Y M :=
  funext (select_gt_apply Y M)

/-- The host's dense step as an array. -/
theorem host_dense_eq {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (W : FVec Ideal ⟨2, ![K, N]⟩ φ₂) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![R, N]⟩ ![0, 1]) :
    addf (Host.dotGeneral d prec a W) (broadcastInDim ⟨2, ![R, N]⟩ ![0, 1] h2 (broadcastInDim ⟨2, ![1, N]⟩ ![1] h1 b))
      = denseArr a W b := by
  funext i
  obtain ⟨p, q, rfl⟩ : ∃ (p : Fin R) (q : Fin N), i = ix2 p q := ⟨i 0, i 1, eq_ix2 i⟩
  show Host.dotGeneral d prec a W (ix2 p q)
      + broadcastInDim ⟨2, ![R, N]⟩ ![0, 1] h2 (broadcastInDim ⟨2, ![1, N]⟩ ![1] h1 b) (ix2 p q) = _
  rw [dotGeneral_plain_apply d hd, bias_rows_host_apply]
  rfl

/-- The host's rectifier-and-mask as an array. -/
theorem host_act_eq {s : Shape} (Y M : FVec Ideal s .f32) (h0 : (⟨0, ![]⟩ : Shape).BroadcastsInDim s ![]) :
    mulf (maximumf Y (broadcastInDim s ![] h0 (constant (F := Ideal) ⟨0, ![]⟩ .f32 0x00000000#32))) M = actArr Y M :=
  funext (relu_mask_host_apply Y M h0)

/-- A change of float format is the identity on extended reals. -/
theorem truncf_eq {s : Shape} {φ ψ : FTy} (v : FVec Ideal s φ) (h : ψ.bits < φ.bits) : truncf ψ v h = v := rfl

/-! ### Row locality -/

/-- Row `p` of `A` is row `r` of `A'`. -/
def RowEq {R R' C : ℕ} (A : (⟨2, ![R, C]⟩ : Shape).Idx → EReal) (A' : (⟨2, ![R', C]⟩ : Shape).Idx → EReal)
    (p : Fin R) (r : Fin R') : Prop :=
  ∀ k : Fin C, A (ix2 p k) = A' (ix2 r k)

theorem denseArr_rowEq {R R' K N : ℕ} {H : (⟨2, ![R, K]⟩ : Shape).Idx → EReal} {H' : (⟨2, ![R', K]⟩ : Shape).Idx → EReal}
    {W W' : (⟨2, ![K, N]⟩ : Shape).Idx → EReal} {b b' : (⟨1, ![N]⟩ : Shape).Idx → EReal} {p : Fin R} {r : Fin R'}
    (hH : RowEq H H' p r) (hW : W = W') (hb : b = b') : RowEq (denseArr H W b) (denseArr H' W' b') p r := by
  intro n
  subst hW hb
  have e : row H p = row H' r := funext hH
  show dense (row H p) (mat W) (vec b) n = dense (row H' r) (mat W) (vec b) n
  rw [e]

theorem actArr_rowEq {R R' C : ℕ} {Y M : (⟨2, ![R, C]⟩ : Shape).Idx → EReal} {Y' M' : (⟨2, ![R', C]⟩ : Shape).Idx → EReal}
    {p : Fin R} {r : Fin R'} (hY : RowEq Y Y' p r) (hM : RowEq M M' p r) : RowEq (actArr Y M) (actArr Y' M') p r := by
  intro n
  show act (Y (ix2 p n)) (M (ix2 p n)) = act (Y' (ix2 r n)) (M' (ix2 r n))
  rw [hY n, hM n]

theorem layerArr_rowEq {R R' K N : ℕ} {H : (⟨2, ![R, K]⟩ : Shape).Idx → EReal} {H' : (⟨2, ![R', K]⟩ : Shape).Idx → EReal}
    {W W' : (⟨2, ![K, N]⟩ : Shape).Idx → EReal} {b b' : (⟨1, ![N]⟩ : Shape).Idx → EReal}
    {M : (⟨2, ![R, N]⟩ : Shape).Idx → EReal} {M' : (⟨2, ![R', N]⟩ : Shape).Idx → EReal} {p : Fin R} {r : Fin R'}
    (hH : RowEq H H' p r) (hW : W = W') (hb : b = b') (hM : RowEq M M' p r) :
    RowEq (layerArr H W b M) (layerArr H' W' b' M') p r :=
  actArr_rowEq (denseArr_rowEq hH hW hb) hM

end Cert.DenseLayer

end
-- ==== Proof.Layers.lean ====
/-
  The two dense stages of a graph-convolution layer as whole-array functions over the extended reals.

  `matProd a w` is the matrix product of a [100000, 128] array with a [128, 128] array: entry (r, n) is
  `∑ k, a (r, k) * w (k, n)`.  `biasRelu a b` adds the one-row array `b` to every row of `a` and rectifies:
  entry (r, n) is `max (a (r, n) + b (0, n)) 0`.  Both depend on row `r` of `a` only, which is why a grid of row
  blocks computes them block by block.  The host's spellings of the same two stages (a dot product over the plain
  dimension numbers; a bias vector placed on a row, the row on every row, a sum, a maximum with a zero splat) are
  shown equal to them entry by entry.
-/
import proofs.«166285_j32375463477659_1_alg».proof.Proof.LibDenseLayer

noncomputable section

open Idealize.ShloMosaic Idealize.ShloMosaic.ValueIdx

namespace Cert.Gcn

abbrev SN : Shape := ⟨2, ![100000, 128]⟩
abbrev SW : Shape := ⟨2, ![128, 128]⟩
abbrev SB : Shape := ⟨2, ![1, 128]⟩
abbrev SV : Shape := ⟨1, ![128]⟩

/-- The matrix product, entry by entry. -/
def matProd (a : SN.Idx → EReal) (w : SW.Idx → EReal) : SN.Idx → EReal :=
  fun i => ∑ k : Fin 128, a (ix2 (⟨(i 0).val, idx2_lt0 i⟩ : Fin 100000) k) * w (ix2 k (⟨(i 1).val, idx2_lt1 i⟩ : Fin 128))

theorem matProd_ix2 (a : SN.Idx → EReal) (w : SW.Idx → EReal) (p : Fin 100000) (q : Fin 128) :
    matProd a w (ix2 p q) = ∑ k : Fin 128, a (ix2 p k) * w (ix2 k q) := rfl

/-- Bias row added to every row, then the rectifier. -/
def biasRelu (a : SN.Idx → EReal) (b : SB.Idx → EReal) : SN.Idx → EReal :=
  fun i => max (a i + b (ix2 (0 : Fin 1) (⟨(i 1).val, idx2_lt1 i⟩ : Fin 128))) 0

theorem biasRelu_ix2 (a : SN.Idx → EReal) (b : SB.Idx → EReal) (p : Fin 100000) (q : Fin 128) :
    biasRelu a b (ix2 p q) = max (a (ix2 p q) + b (ix2 (0 : Fin 1) q)) 0 := rfl

/-- The host's dot product over the plain dimension numbers is the matrix product. -/
theorem host_dot_eq (d : DotDims SN SW SN) (hd : d = DotDims.plain 100000 128 128) (prec : Option ContractPrecision)
    (a : FVec Ideal SN .f32) (w : FVec Ideal SW .f32) : Host.dotGeneral d prec a w = matProd a w := by
  funext i
  obtain ⟨p, q, rfl⟩ : ∃ (p : Fin 100000) (q : Fin 128), i = ix2 p q := ⟨i 0, i 1, eq_ix2 i⟩
  rw [Cert.DenseLayer.dotGeneral_plain_apply d hd, matProd_ix2]

/-- The host's layer epilogue — the bias vector on axis 1 of a one-row array, that row on every row, added, the maximum
    with the zero scalar splat — is `biasRelu` of the bias as a one-row array. -/
theorem host_biasRelu_eq (a : FVec Ideal SN .f32) (b : FVec Ideal SV .f32)
    (h1 : SV.BroadcastsInDim SB ![1]) (h2 : SB.BroadcastsInDim SN ![0, 1]) (h0 : (⟨0, ![]⟩ : Shape).BroadcastsInDim SN ![])
    (sc : SV.ShapeCasts SB) :
    maximumf (addf a (broadcastInDim SN ![0, 1] h2 (broadcastInDim SB ![1] h1 b)))
        (broadcastInDim SN ![] h0 (constant (F := Ideal) ⟨0, ![]⟩ .f32 0x00000000#32))
      = biasRelu a (shapeCast SB b sc) := by
  funext i
  obtain ⟨p, q, rfl⟩ : ∃ (p : Fin 100000) (q : Fin 128), i = ix2 p q := ⟨i 0, i 1, eq_ix2 i⟩
  show max (a (ix2 p q) + broadcastInDim SN ![0, 1] h2 (broadcastInDim SB ![1] h1 b) (ix2 p q))
      (broadcastInDim SN ![] h0 (constant (F := Ideal) ⟨0, ![]⟩ .f32 0x00000000#32) (ix2 p q)) = _
  rw [Cert.DenseLayer.bias_rows_host_apply, broadcastInDim_apply _ h0 _ (ix2 p q) ix0 (fun a => a.elim0), biasRelu_ix2,
    shapeCast_a_1a_apply b sc 0 q]
  show max _ (Ideal.ofBits .f32 0x00000000#32) = _
  rw [Ideal.ofBits_zero_f32]

end Cert.Gcn

end
-- ==== Proof.Region0.lean ====
/-
  Region 0 of the kernel program is a grid of ten row blocks, each the matrix product of a [10000, 128] block of rows of
  its first operand with the whole [128, 128] second operand.  Entry (r, n) of a matrix product depends on row r of the
  first operand only, so the ten blocks written back are the ten row blocks of the product of the whole arrays, and
  since the blocks tile the [100000, 128] result, the result array ends holding that product.
-/
import proofs.«166285_j32375463477659_1_alg».proof.Proof.Gen.KernelIdeal.Frame
import proofs.«166285_j32375463477659_1_alg».proof.Proof.Layers
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The block's payload at entry (p, q): row p of the row block against column q of the weights. A change of float
    format is the identity on extended reals, and the product into the zero accumulator is the plain sum. -/
theorem pay_apply (x0 : Vec Ideal S10000x128 .f32) (x1 : Vec Ideal S128x128 .f32) (p : Fin 10000) (q : Fin 128) :
    k0_pay1 x0 x1 (ix2 p q) = ∑ k : Fin 128, x0 (ix2 p k) * x1 (ix2 k q) := by
  unfold k0_pay1
  exact Cert.DenseLayer.matmul_plain_apply dot_S10000x128_S128x128_S10000x128_1_0_0_1_n_n rfl none _ _ p q

/-- The index maps over the grid: the row-block windows move with the point, the weights window stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every row block is some point's. -/
theorem idx_onto : ∀ q0 : Fin 10, ∃ t : Fin cfg0.N, win0_2.index t = ![q0.val, 0] :=
  (by decide +kernel : ∀ q0 : Fin 10, ∃ t : Fin grid0.N, win0_2.index t = ![q0.val, 0])

/-- The row-block window's block at point `t` is rows `10000 t … 10000 t + 9999` of its array. -/
theorem rows_apply (c : Dev nD) (t : Fin cfg0.N) (x : S10000x128.Idx) (k : S100000x128.Idx)
    (hk0 : (k 0).val = 10000 * t.val + (x 0).val) (hk1 : (k 1).val = (x 1).val) :
    (iblk0 V c 0 t : Vec Ideal S10000x128 .f32) x = (V c main_arg0 : S100000x128.Idx → EReal) k := by
  obtain ⟨e0, e1, -⟩ := idx_facts t
  unfold iblk0
  rw [View.read_apply]
  show (V c main_arg0 : S100000x128.Idx → EReal) _ = _
  refine congrArg (V c main_arg0 : S100000x128.Idx → EReal) ?_
  funext a
  apply Fin.ext
  match a with
  | ⟨0, _⟩ => show win0_0.index t (0 : Fin 2) * 10000 + 1 * (x 0).val = (k 0).val; rw [e0, hk0]; omega
  | ⟨1, _⟩ => show win0_0.index t (1 : Fin 2) * 128 + 1 * (x 1).val = (k 1).val; rw [e1, hk1]; omega

/-- The weights window's block at every point is the whole weights array. -/
theorem weights_apply (c : Dev nD) (t : Fin cfg0.N) (x : S128x128.Idx) :
    (iblk0 V c 1 t : Vec Ideal S128x128 .f32) x = (V c main_arg2 : S128x128.Idx → EReal) x := by
  obtain ⟨-, -, e0, e1, -⟩ := idx_facts t
  unfold iblk0
  rw [View.read_apply]
  show (V c main_arg2 : S128x128.Idx → EReal) _ = _
  refine congrArg (V c main_arg2 : S128x128.Idx → EReal) ?_
  funext a
  apply Fin.ext
  match a with
  | ⟨0, _⟩ => show win0_1.index t (0 : Fin 2) * 128 + 1 * (x 0).val = (x 0).val; rw [e0]; omega
  | ⟨1, _⟩ => show win0_1.index t (1 : Fin 2) * 128 + 1 * (x 1).val = (x 1).val; rw [e1]; omega

/-- What point `t` writes back is block `t` of the product of the whole arrays. -/
theorem flushed_eq (c : Dev nD) (t : Fin cfg0.N) :
    (dat0 V c).flushed 2 t
      = ((cfg0.win 2).blk t).view.read (Elt Ideal) (matProd (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  obtain ⟨-, -, -, -, e0, e1⟩ := idx_facts t
  funext j
  obtain ⟨p, q, rfl⟩ : ∃ (p : Fin 10000) (q : Fin 128), j = ix2 p q := ⟨j 0, j 1, eq_ix2 j⟩
  have hp : 10000 * t.val + p.val < 100000 := by
    have := t.isLt; have hN : cfg0.N = 10 := N_0; have := p.isLt; omega
  have hemb : ((cfg0.win 2).blk t).view.emb (ix2 p q) = ix2 (⟨10000 * t.val + p.val, hp⟩ : Fin 100000) q := by
    funext a
    apply Fin.ext
    match a with
    | ⟨0, _⟩ => show win0_2.index t (0 : Fin 2) * 10000 + 1 * p.val = 10000 * t.val + p.val; rw [e0]; omega
    | ⟨1, _⟩ => show win0_2.index t (1 : Fin 2) * 128 + 1 * q.val = q.val; rw [e1]; omega
  show k0_pay1 (iblk0 V c 0 t) (iblk0 V c 1 t) (ix2 p q)
      = matProd (V c main_arg0) (V c main_arg2) (((cfg0.win 2).blk t).view.emb (ix2 p q))
  rw [hemb, matProd_ix2]
  refine (pay_apply (iblk0 V c 0 t) (iblk0 V c 1 t) p q).trans ?_
  refine Finset.sum_congr rfl fun k _ => ?_
  rw [rows_apply V c t (ix2 p k) (ix2 (⟨10000 * t.val + p.val, hp⟩ : Fin 100000) k) rfl rfl, weights_apply V c t (ix2 k q)]

/-- An index of the array is in point `t`'s block iff each coordinate is in the block's range on its axis. -/
theorem mem_blk (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole (Pipeline.arrRef spec0 2)).slice (win0_2.rect t)).set ↔ _
  rw [View.set_slice_whole, Rect.mem_set_unit]
  exact Iff.rfl

/-- The ten row blocks tile the array. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- The region's result array after its last point: the matrix product of its two operand arrays as the region finds
    them. -/
theorem final (c : Dev nD) : (dat0 V c).arrAt 2 cfg0.N = matProd (V c main_arg0) (V c main_arg2) :=
  (dat0 V c).arrAt_eq_of_cover 2 (matProd (V c main_arg0) (V c main_arg2)) (fun t _ => flushed_eq V c t) cover

end Cert.KernelIdeal.Region0

end
-- ==== Proof.Region1.lean ====
/-
  Region 1 of the kernel program is a grid of ten row blocks, each adding the one-row bias array to every row of a
  [10000, 128] block of rows of its first operand and taking the maximum with zero.  Entry (r, n) depends on entry (r, n)
  of the first operand and entry (0, n) of the bias row only, so the ten blocks written back are the ten row blocks of
  the same function of the whole arrays, and since the blocks tile the [100000, 128] result, the result array ends
  holding it.
-/
import proofs.«166285_j32375463477659_1_alg».proof.Proof.Gen.KernelIdeal.Frame
import proofs.«166285_j32375463477659_1_alg».proof.Proof.Layers
import Idealize.ShloMosaic.Lib.Pipeline.Value
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The block's payload at entry (p, q): the block's entry plus the bias row's entry q, rectified. -/
theorem pay_apply (x0 : Vec Ideal S10000x128 .f32) (x1 : Vec Ideal S1x128 .f32) (p : Fin 10000) (q : Fin 128) :
    k1_pay1 x0 x1 (ix2 p q) = max (x0 (ix2 p q) + x1 (ix2 (0 : Fin 1) q)) 0 := by
  unfold k1_pay1
  simp only [shapeCast_self]
  show max (x0 (ix2 p q) + broadcastTo S10000x128 x1 broadcasts_S1x128_S10000x128 (ix2 p q)) (Ideal.ofBits .f32 0x00000000#32) = _
  rw [broadcastTo_1b_ab_apply x1 broadcasts_S1x128_S10000x128 p q, Ideal.ofBits_zero_f32]

/-- The index maps over the grid: the row-block windows move with the point, the bias window stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Every row block is some point's. -/
theorem idx_onto : ∀ q0 : Fin 10, ∃ t : Fin cfg1.N, win1_2.index t = ![q0.val, 0] :=
  (by decide +kernel : ∀ q0 : Fin 10, ∃ t : Fin grid1.N, win1_2.index t = ![q0.val, 0])

/-- The row-block window's block at point `t` is rows `10000 t … 10000 t + 9999` of its array. -/
theorem rows_apply (c : Dev nD) (t : Fin cfg1.N) (x : S10000x128.Idx) (k : S100000x128.Idx)
    (hk0 : (k 0).val = 10000 * t.val + (x 0).val) (hk1 : (k 1).val = (x 1).val) :
    (iblk1 V c 0 t : Vec Ideal S10000x128 .f32) x = (V c main_v45 : S100000x128.Idx → EReal) k := by
  obtain ⟨e0, e1, -⟩ := idx_facts t
  unfold iblk1
  rw [View.read_apply]
  show (V c main_v45 : S100000x128.Idx → EReal) _ = _
  refine congrArg (V c main_v45 : S100000x128.Idx → EReal) ?_
  funext a
  apply Fin.ext
  match a with
  | ⟨0, _⟩ => show win1_0.index t (0 : Fin 2) * 10000 + 1 * (x 0).val = (k 0).val; rw [e0, hk0]; omega
  | ⟨1, _⟩ => show win1_0.index t (1 : Fin 2) * 128 + 1 * (x 1).val = (k 1).val; rw [e1, hk1]; omega

/-- The bias window's block at every point is the whole one-row array. -/
theorem bias_apply (c : Dev nD) (t : Fin cfg1.N) (x : S1x128.Idx) :
    (iblk1 V c 1 t : Vec Ideal S1x128 .f32) x = (V c main_v46 : S1x128.Idx → EReal) x := by
  obtain ⟨-, -, e0, e1, -⟩ := idx_facts t
  unfold iblk1
  rw [View.read_apply]
  show (V c main_v46 : S1x128.Idx → EReal) _ = _
  refine congrArg (V c main_v46 : S1x128.Idx → EReal) ?_
  funext a
  apply Fin.ext
  match a with
  | ⟨0, _⟩ => show win1_1.index t (0 : Fin 2) * 1 + 1 * (x 0).val = (x 0).val; rw [e0]; omega
  | ⟨1, _⟩ => show win1_1.index t (1 : Fin 2) * 128 + 1 * (x 1).val = (x 1).val; rw [e1]; omega

/-- What point `t` writes back is block `t` of the bias-and-rectifier of the whole arrays. -/
theorem flushed_eq (c : Dev nD) (t : Fin cfg1.N) :
    (dat1 V c).flushed 2 t
      = ((cfg1.win 2).blk t).view.read (Elt Ideal) (biasRelu (V c main_v45) (V c main_v46)) := by
  show (cfg1.win 2).cut (grid1.coords t) ((dat1 V c).after 2 t) = _
  rw [after1_2]
  unfold out1_2
  rw [View.canon_unit_zero hz]
  simp only [View.ld_unit_zero (S := S10000x128) hz, View.ld_unit_zero (S := S1x128) hz]
  obtain ⟨-, -, -, -, e0, e1⟩ := idx_facts t
  funext j
  obtain ⟨p, q, rfl⟩ : ∃ (p : Fin 10000) (q : Fin 128), j = ix2 p q := ⟨j 0, j 1, eq_ix2 j⟩
  have hp : 10000 * t.val + p.val < 100000 := by
    have := t.isLt; have hN : cfg1.N = 10 := N_1; have := p.isLt; omega
  have hemb : ((cfg1.win 2).blk t).view.emb (ix2 p q) = ix2 (⟨10000 * t.val + p.val, hp⟩ : Fin 100000) q := by
    funext a
    apply Fin.ext
    match a with
    | ⟨0, _⟩ => show win1_2.index t (0 : Fin 2) * 10000 + 1 * p.val = 10000 * t.val + p.val; rw [e0]; omega
    | ⟨1, _⟩ => show win1_2.index t (1 : Fin 2) * 128 + 1 * q.val = q.val; rw [e1]; omega
  show k1_pay1 (iblk1 V c 0 t) (iblk1 V c 1 t) (ix2 p q)
      = biasRelu (V c main_v45) (V c main_v46) (((cfg1.win 2).blk t).view.emb (ix2 p q))
  rw [hemb, biasRelu_ix2]
  refine (pay_apply (iblk1 V c 0 t) (iblk1 V c 1 t) p q).trans ?_
  rw [rows_apply V c t (ix2 p q) (ix2 (⟨10000 * t.val + p.val, hp⟩ : Fin 100000) q) rfl rfl, bias_apply V c t (ix2 (0 : Fin 1) q)]

/-- An index of the array is in point `t`'s block iff each coordinate is in the block's range on its axis. -/
theorem mem_blk (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole (Pipeline.arrRef spec1 2)).slice (win1_2.rect t)).set ↔ _
  rw [View.set_slice_whole, Rect.mem_set_unit]
  exact Iff.rfl

/-- The ten row blocks tile the array. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := idx_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- The region's result array after its last point: bias and rectifier of its two operand arrays as the region finds
    them. -/
theorem final (c : Dev nD) : (dat1 V c).arrAt 2 cfg1.N = biasRelu (V c main_v45) (V c main_v46) :=
  (dat1 V c).arrAt_eq_of_cover 2 (biasRelu (V c main_v45) (V c main_v46)) (fun t _ => flushed_eq V c t) cover

end Cert.KernelIdeal.Region1

end
-- ==== Proof.Region2.lean ====
/-
  Region 2 of the kernel program is a grid of ten row blocks, each the matrix product of a [10000, 128] block of rows of
  its first operand with the whole [128, 128] second operand.  Entry (r, n) of a matrix product depends on row r of the
  first operand only, so the ten blocks written back are the ten row blocks of the product of the whole arrays, and
  since the blocks tile the [100000, 128] result, the result array ends holding that product.
-/
import proofs.«166285_j32375463477659_1_alg».proof.Proof.Gen.KernelIdeal.Frame
import proofs.«166285_j32375463477659_1_alg».proof.Proof.Layers
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The block's payload at entry (p, q): row p of the row block against column q of the weights. A change of float
    format is the identity on extended reals, and the product into the zero accumulator is the plain sum. -/
theorem pay_apply (x0 : Vec Ideal S10000x128 .f32) (x1 : Vec Ideal S128x128 .f32) (p : Fin 10000) (q : Fin 128) :
    k2_pay1 x0 x1 (ix2 p q) = ∑ k : Fin 128, x0 (ix2 p k) * x1 (ix2 k q) := by
  unfold k2_pay1
  simp only [shapeCast_self]
  exact Cert.DenseLayer.matmul_plain_apply dot_S10000x128_S128x128_S10000x128_1_0_0_1_n_n rfl none _ _ p q

/-- The index maps over the grid: the row-block windows move with the point, the weights window stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Every row block is some point's. -/
theorem idx_onto : ∀ q0 : Fin 10, ∃ t : Fin cfg2.N, win2_2.index t = ![q0.val, 0] :=
  (by decide +kernel : ∀ q0 : Fin 10, ∃ t : Fin grid2.N, win2_2.index t = ![q0.val, 0])

/-- The row-block window's block at point `t` is rows `10000 t … 10000 t + 9999` of its array. -/
theorem rows_apply (c : Dev nD) (t : Fin cfg2.N) (x : S10000x128.Idx) (k : S100000x128.Idx)
    (hk0 : (k 0).val = 10000 * t.val + (x 0).val) (hk1 : (k 1).val = (x 1).val) :
    (iblk2 V c 0 t : Vec Ideal S10000x128 .f32) x = (V c main_v47 : S100000x128.Idx → EReal) k := by
  obtain ⟨e0, e1, -⟩ := idx_facts t
  unfold iblk2
  rw [View.read_apply]
  show (V c main_v47 : S100000x128.Idx → EReal) _ = _
  refine congrArg (V c main_v47 : S100000x128.Idx → EReal) ?_
  funext a
  apply Fin.ext
  match a with
  | ⟨0, _⟩ => show win2_0.index t (0 : Fin 2) * 10000 + 1 * (x 0).val = (k 0).val; rw [e0, hk0]; omega
  | ⟨1, _⟩ => show win2_0.index t (1 : Fin 2) * 128 + 1 * (x 1).val = (k 1).val; rw [e1, hk1]; omega

/-- The weights window's block at every point is the whole weights array. -/
theorem weights_apply (c : Dev nD) (t : Fin cfg2.N) (x : S128x128.Idx) :
    (iblk2 V c 1 t : Vec Ideal S128x128 .f32) x = (V c main_arg4 : S128x128.Idx → EReal) x := by
  obtain ⟨-, -, e0, e1, -⟩ := idx_facts t
  unfold iblk2
  rw [View.read_apply]
  show (V c main_arg4 : S128x128.Idx → EReal) _ = _
  refine congrArg (V c main_arg4 : S128x128.Idx → EReal) ?_
  funext a
  apply Fin.ext
  match a with
  | ⟨0, _⟩ => show win2_1.index t (0 : Fin 2) * 128 + 1 * (x 0).val = (x 0).val; rw [e0]; omega
  | ⟨1, _⟩ => show win2_1.index t (1 : Fin 2) * 128 + 1 * (x 1).val = (x 1).val; rw [e1]; omega

/-- What point `t` writes back is block `t` of the product of the whole arrays. -/
theorem flushed_eq (c : Dev nD) (t : Fin cfg2.N) :
    (dat2 V c).flushed 2 t
      = ((cfg2.win 2).blk t).view.read (Elt Ideal) (matProd (V c main_v47) (V c main_arg4)) := by
  show (cfg2.win 2).cut (grid2.coords t) ((dat2 V c).after 2 t) = _
  rw [after2_2]
  unfold out2_2
  rw [View.canon_unit_zero hz]
  simp only [View.ld_unit_zero (S := S10000x128) hz, View.ld_unit_zero (S := S128x128) hz]
  obtain ⟨-, -, -, -, e0, e1⟩ := idx_facts t
  funext j
  obtain ⟨p, q, rfl⟩ : ∃ (p : Fin 10000) (q : Fin 128), j = ix2 p q := ⟨j 0, j 1, eq_ix2 j⟩
  have hp : 10000 * t.val + p.val < 100000 := by
    have := t.isLt; have hN : cfg2.N = 10 := N_2; have := p.isLt; omega
  have hemb : ((cfg2.win 2).blk t).view.emb (ix2 p q) = ix2 (⟨10000 * t.val + p.val, hp⟩ : Fin 100000) q := by
    funext a
    apply Fin.ext
    match a with
    | ⟨0, _⟩ => show win2_2.index t (0 : Fin 2) * 10000 + 1 * p.val = 10000 * t.val + p.val; rw [e0]; omega
    | ⟨1, _⟩ => show win2_2.index t (1 : Fin 2) * 128 + 1 * q.val = q.val; rw [e1]; omega
  show k2_pay1 (iblk2 V c 0 t) (iblk2 V c 1 t) (ix2 p q)
      = matProd (V c main_v47) (V c main_arg4) (((cfg2.win 2).blk t).view.emb (ix2 p q))
  rw [hemb, matProd_ix2]
  refine (pay_apply (iblk2 V c 0 t) (iblk2 V c 1 t) p q).trans ?_
  refine Finset.sum_congr rfl fun k _ => ?_
  rw [rows_apply V c t (ix2 p k) (ix2 (⟨10000 * t.val + p.val, hp⟩ : Fin 100000) k) rfl rfl, weights_apply V c t (ix2 k q)]

/-- An index of the array is in point `t`'s block iff each coordinate is in the block's range on its axis. -/
theorem mem_blk (t : Fin cfg2.N) (i : S100000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole (Pipeline.arrRef spec2 2)).slice (win2_2.rect t)).set ↔ _
  rw [View.set_slice_whole, Rect.mem_set_unit]
  exact Iff.rfl

/-- The ten row blocks tile the array. -/
theorem cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ := idx_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 128 ≤ (i 1).val ∧ (i 1).val < win2_2.index t (1 : Fin 2) * 128 + 128; omega

/-- The region's result array after its last point: the matrix product of its two operand arrays as the region finds
    them. -/
theorem final (c : Dev nD) : (dat2 V c).arrAt 2 cfg2.N = matProd (V c main_v47) (V c main_arg4) :=
  (dat2 V c).arrAt_eq_of_cover 2 (matProd (V c main_v47) (V c main_arg4)) (fun t _ => flushed_eq V c t) cover

end Cert.KernelIdeal.Region2

end
-- ==== Proof.Region3.lean ====
/-
  Region 3 of the kernel program is a grid of ten row blocks, each adding the one-row bias array to every row of a
  [10000, 128] block of rows of its first operand and taking the maximum with zero.  Entry (r, n) depends on entry (r, n)
  of the first operand and entry (0, n) of the bias row only, so the ten blocks written back are the ten row blocks of
  the same function of the whole arrays, and since the blocks tile the [100000, 128] result, the result array ends
  holding it.
-/
import proofs.«166285_j32375463477659_1_alg».proof.Proof.Gen.KernelIdeal.Frame
import proofs.«166285_j32375463477659_1_alg».proof.Proof.Layers
import Idealize.ShloMosaic.Lib.Pipeline.Value
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.Region3

open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The block's payload at entry (p, q): the block's entry plus the bias row's entry q, rectified. -/
theorem pay_apply (x0 : Vec Ideal S10000x128 .f32) (x1 : Vec Ideal S1x128 .f32) (p : Fin 10000) (q : Fin 128) :
    k3_pay1 x0 x1 (ix2 p q) = max (x0 (ix2 p q) + x1 (ix2 (0 : Fin 1) q)) 0 := by
  unfold k3_pay1
  simp only [shapeCast_self]
  show max (x0 (ix2 p q) + broadcastTo S10000x128 x1 broadcasts_S1x128_S10000x128 (ix2 p q)) (Ideal.ofBits .f32 0x00000000#32) = _
  rw [broadcastTo_1b_ab_apply x1 broadcasts_S1x128_S10000x128 p q, Ideal.ofBits_zero_f32]

/-- The index maps over the grid: the row-block windows move with the point, the bias window stays. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Every row block is some point's. -/
theorem idx_onto : ∀ q0 : Fin 10, ∃ t : Fin cfg3.N, win3_2.index t = ![q0.val, 0] :=
  (by decide +kernel : ∀ q0 : Fin 10, ∃ t : Fin grid3.N, win3_2.index t = ![q0.val, 0])

/-- The row-block window's block at point `t` is rows `10000 t … 10000 t + 9999` of its array. -/
theorem rows_apply (c : Dev nD) (t : Fin cfg3.N) (x : S10000x128.Idx) (k : S100000x128.Idx)
    (hk0 : (k 0).val = 10000 * t.val + (x 0).val) (hk1 : (k 1).val = (x 1).val) :
    (iblk3 V c 0 t : Vec Ideal S10000x128 .f32) x = (V c main_v61 : S100000x128.Idx → EReal) k := by
  obtain ⟨e0, e1, -⟩ := idx_facts t
  unfold iblk3
  rw [View.read_apply]
  show (V c main_v61 : S100000x128.Idx → EReal) _ = _
  refine congrArg (V c main_v61 : S100000x128.Idx → EReal) ?_
  funext a
  apply Fin.ext
  match a with
  | ⟨0, _⟩ => show win3_0.index t (0 : Fin 2) * 10000 + 1 * (x 0).val = (k 0).val; rw [e0, hk0]; omega
  | ⟨1, _⟩ => show win3_0.index t (1 : Fin 2) * 128 + 1 * (x 1).val = (k 1).val; rw [e1, hk1]; omega

/-- The bias window's block at every point is the whole one-row array. -/
theorem bias_apply (c : Dev nD) (t : Fin cfg3.N) (x : S1x128.Idx) :
    (iblk3 V c 1 t : Vec Ideal S1x128 .f32) x = (V c main_v62 : S1x128.Idx → EReal) x := by
  obtain ⟨-, -, e0, e1, -⟩ := idx_facts t
  unfold iblk3
  rw [View.read_apply]
  show (V c main_v62 : S1x128.Idx → EReal) _ = _
  refine congrArg (V c main_v62 : S1x128.Idx → EReal) ?_
  funext a
  apply Fin.ext
  match a with
  | ⟨0, _⟩ => show win3_1.index t (0 : Fin 2) * 1 + 1 * (x 0).val = (x 0).val; rw [e0]; omega
  | ⟨1, _⟩ => show win3_1.index t (1 : Fin 2) * 128 + 1 * (x 1).val = (x 1).val; rw [e1]; omega

/-- What point `t` writes back is block `t` of the bias-and-rectifier of the whole arrays. -/
theorem flushed_eq (c : Dev nD) (t : Fin cfg3.N) :
    (dat3 V c).flushed 2 t
      = ((cfg3.win 2).blk t).view.read (Elt Ideal) (biasRelu (V c main_v61) (V c main_v62)) := by
  show (cfg3.win 2).cut (grid3.coords t) ((dat3 V c).after 2 t) = _
  rw [after3_2]
  unfold out3_2
  rw [View.canon_unit_zero hz]
  simp only [View.ld_unit_zero (S := S10000x128) hz, View.ld_unit_zero (S := S1x128) hz]
  obtain ⟨-, -, -, -, e0, e1⟩ := idx_facts t
  funext j
  obtain ⟨p, q, rfl⟩ : ∃ (p : Fin 10000) (q : Fin 128), j = ix2 p q := ⟨j 0, j 1, eq_ix2 j⟩
  have hp : 10000 * t.val + p.val < 100000 := by
    have := t.isLt; have hN : cfg3.N = 10 := N_3; have := p.isLt; omega
  have hemb : ((cfg3.win 2).blk t).view.emb (ix2 p q) = ix2 (⟨10000 * t.val + p.val, hp⟩ : Fin 100000) q := by
    funext a
    apply Fin.ext
    match a with
    | ⟨0, _⟩ => show win3_2.index t (0 : Fin 2) * 10000 + 1 * p.val = 10000 * t.val + p.val; rw [e0]; omega
    | ⟨1, _⟩ => show win3_2.index t (1 : Fin 2) * 128 + 1 * q.val = q.val; rw [e1]; omega
  show k3_pay1 (iblk3 V c 0 t) (iblk3 V c 1 t) (ix2 p q)
      = biasRelu (V c main_v61) (V c main_v62) (((cfg3.win 2).blk t).view.emb (ix2 p q))
  rw [hemb, biasRelu_ix2]
  refine (pay_apply (iblk3 V c 0 t) (iblk3 V c 1 t) p q).trans ?_
  rw [rows_apply V c t (ix2 p q) (ix2 (⟨10000 * t.val + p.val, hp⟩ : Fin 100000) q) rfl rfl, bias_apply V c t (ix2 (0 : Fin 1) q)]

/-- An index of the array is in point `t`'s block iff each coordinate is in the block's range on its axis. -/
theorem mem_blk (t : Fin cfg3.N) (i : S100000x128.Idx) :
    i ∈ ((cfg3.win 2).blk t).view.set ↔ ∀ a : Fin 2, win3_2.index t a * S10000x128.size a ≤ (i a).val ∧ (i a).val < win3_2.index t a * S10000x128.size a + S10000x128.size a := by
  show i ∈ ((View.whole (Pipeline.arrRef spec3 2)).slice (win3_2.rect t)).set ↔ _
  rw [View.set_slice_whole, Rect.mem_set_unit]
  exact Iff.rfl

/-- The ten row blocks tile the array. -/
theorem cover (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  obtain ⟨t, ht⟩ := idx_onto ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 128 ≤ (i 1).val ∧ (i 1).val < win3_2.index t (1 : Fin 2) * 128 + 128; omega

/-- The region's result array after its last point: bias and rectifier of its two operand arrays as the region finds
    them. -/
theorem final (c : Dev nD) : (dat3 V c).arrAt 2 cfg3.N = biasRelu (V c main_v61) (V c main_v62) :=
  (dat3 V c).arrAt_eq_of_cover 2 (biasRelu (V c main_v61) (V c main_v62)) (fun t _ => flushed_eq V c t) cover

end Cert.KernelIdeal.Region3

end
-- ==== Proof.KernelValue.lean ====
/-
  The kernel program's result as one function of its arguments.  The program alternates host stretches and four
  pipelined regions; following its result array back through the segment boundaries gives: region 3 is bias and
  rectifier of (the message passing of region 2's product, the second bias row); region 2 is the matrix product of
  region 1's result with the second weights; region 1 is bias and rectifier of (the message passing of region 0's
  product, the first bias row); region 0 is the matrix product of the features with the first weights.  The edge
  list, the normalisation and the six arguments are written before region 0 or at launch and are not overwritten by
  any later stretch or region, so each later boundary still holds them.
-/
import proofs.«166285_j32375463477659_1_alg».proof.Proof.Gen.KernelIdeal.Frame
import proofs.«166285_j32375463477659_1_alg».proof.Proof.KernelRun
import proofs.«166285_j32375463477659_1_alg».proof.Proof.KernelChain
import proofs.«166285_j32375463477659_1_alg».proof.Proof.Region0
import proofs.«166285_j32375463477659_1_alg».proof.Proof.Region1
import proofs.«166285_j32375463477659_1_alg».proof.Proof.Region2
import proofs.«166285_j32375463477659_1_alg».proof.Proof.Region3

set_option maxRecDepth 16384

noncomputable section

namespace Cert.KernelIdeal.Result

open Cert.KernelIdeal Cert.KernelIdeal.Gen Cert.KernelIdeal.Glue Cert.KernelIdeal.Chain Cert.Gcn
open Idealize.ShloMosaic Idealize.ShloMosaic.TcCoe Idealize.SL.Sem

/-- Two graph-convolution layers: matrix product, message passing, bias, rectifier; twice. -/
def gcn (x : (⟨S100000x128, .f32⟩ : BufTy).Contents (Elt Ideal)) (ei : (⟨S2x640000, .i32⟩ : BufTy).Contents (Elt Ideal))
    (w1 : (⟨S128x128, .f32⟩ : BufTy).Contents (Elt Ideal)) (b1 : (⟨S128, .f32⟩ : BufTy).Contents (Elt Ideal))
    (w2 : (⟨S128x128, .f32⟩ : BufTy).Contents (Elt Ideal)) (b2 : (⟨S128, .f32⟩ : BufTy).Contents (Elt Ideal)) :
    (⟨S100000x128, .f32⟩ : BufTy).Contents (Elt Ideal) :=
  biasRelu (aggregate (endpoints0 ei) (endpoints1 ei) (edgeNorm (endpoints0 ei) (endpoints1 ei))
      (matProd (biasRelu (aggregate (endpoints0 ei) (endpoints1 ei) (edgeNorm (endpoints0 ei) (endpoints1 ei)) (matProd x w1))
        (shapeCast S1x128 b1 shapeCasts_S128_S1x128)) w2))
    (shapeCast S1x128 b2 shapeCasts_S128_S1x128)

variable (m : (ℓ : Loc nD τ sig) → Buf (Elt Ideal) ℓ) (ρ : Dev nD → PrngReg)

/-! ## What region 0's exit holds -/

theorem W4_row (c : Dev nD) : W4 m ρ c (Proc.devRef .tc main_v3) = endpoints0 (m ((c : Thread nD τ).loc main_arg1)) :=
  (W4_of_ne m ρ c main_v3 (by decide)).trans (W3_row m ρ c)
theorem W4_col (c : Dev nD) : W4 m ρ c (Proc.devRef .tc main_v6) = endpoints1 (m ((c : Thread nD τ).loc main_arg1)) :=
  (W4_of_ne m ρ c main_v6 (by decide)).trans (W3_col m ρ c)
theorem W4_norm (c : Dev nD) : W4 m ρ c (Proc.devRef .tc main_v31)
    = edgeNorm (endpoints0 (m ((c : Thread nD τ).loc main_arg1))) (endpoints1 (m ((c : Thread nD τ).loc main_arg1))) :=
  (W4_of_ne m ρ c main_v31 (by decide)).trans (W3_norm m ρ c)
theorem W4_arg3 (c : Dev nD) : W4 m ρ c (Proc.devRef .tc main_arg3) = m ((c : Thread nD τ).loc main_arg3) :=
  (W4_of_ne m ρ c main_arg3 (by decide)).trans (W3_arg3 m ρ c)
theorem W4_arg4 (c : Dev nD) : W4 m ρ c (Proc.devRef .tc main_arg4) = m ((c : Thread nD τ).loc main_arg4) :=
  (W4_of_ne m ρ c main_arg4 (by decide)).trans (W3_arg4 m ρ c)
theorem W4_arg5 (c : Dev nD) : W4 m ρ c (Proc.devRef .tc main_arg5) = m ((c : Thread nD τ).loc main_arg5) :=
  (W4_of_ne m ρ c main_arg5 (by decide)).trans (W3_arg5 m ρ c)

/-- Region 0's result: the features times the first weights. -/
theorem W4_prod (c : Dev nD) : W4 m ρ c (Proc.devRef .tc main_v32)
    = matProd (m ((c : Thread nD τ).loc main_arg0)) (m ((c : Thread nD τ).loc main_arg2)) :=
  (W4_arr m ρ c 2).trans ((Region0.final (V3 m ρ) c).trans (congrArg₂ matProd (W3_arg0 m ρ c) (W3_arg2 m ρ c)))

/-! ## What region 1's entry and exit hold -/

/-- The first layer's aggregated messages. -/
def agg1 (c : Dev nD) : (⟨S100000x128, .f32⟩ : BufTy).Contents (Elt Ideal) :=
  aggregate (endpoints0 (m ((c : Thread nD τ).loc main_arg1))) (endpoints1 (m ((c : Thread nD τ).loc main_arg1)))
    (edgeNorm (endpoints0 (m ((c : Thread nD τ).loc main_arg1))) (endpoints1 (m ((c : Thread nD τ).loc main_arg1))))
    (matProd (m ((c : Thread nD τ).loc main_arg0)) (m ((c : Thread nD τ).loc main_arg2)))

theorem W5_agg1 (c : Dev nD) : W5 m ρ c (Proc.devRef .tc main_v45) = agg1 m c := by
  refine (W5_agg m ρ c).trans ?_
  rw [W4_row, W4_col, W4_norm, W4_prod]
  rfl

theorem W5_bias1 (c : Dev nD) : W5 m ρ c (Proc.devRef .tc main_v46)
    = shapeCast S1x128 (m ((c : Thread nD τ).loc main_arg3)) shapeCasts_S128_S1x128 := by
  refine (W5_bias m ρ c).trans ?_
  rw [W4_arg3]

/-- The first layer's output. -/
def out1 (c : Dev nD) : (⟨S100000x128, .f32⟩ : BufTy).Contents (Elt Ideal) :=
  biasRelu (agg1 m c) (shapeCast S1x128 (m ((c : Thread nD τ).loc main_arg3)) shapeCasts_S128_S1x128)

theorem W6_out1 (c : Dev nD) : W6 m ρ c (Proc.devRef .tc main_v47) = out1 m c :=
  (W6_arr m ρ c 2).trans ((Region1.final (V5 m ρ) c).trans (congrArg₂ biasRelu (W5_agg1 m ρ c) (W5_bias1 m ρ c)))

theorem W6_arg4 (c : Dev nD) : W6 m ρ c (Proc.devRef .tc main_arg4) = m ((c : Thread nD τ).loc main_arg4) :=
  (W6_of_ne m ρ c main_arg4 (by decide)).trans ((W5_keep_main_arg4 m ρ c).trans (W4_arg4 m ρ c))

/-! ## What region 2's exit holds -/

theorem W7_prod (c : Dev nD) : W7 m ρ c (Proc.devRef .tc main_v48)
    = matProd (out1 m c) (m ((c : Thread nD τ).loc main_arg4)) :=
  (W7_arr m ρ c 2).trans ((Region2.final (V6 m ρ) c).trans (congrArg₂ matProd (W6_out1 m ρ c) (W6_arg4 m ρ c)))

theorem W7_row (c : Dev nD) : W7 m ρ c (Proc.devRef .tc main_v3) = endpoints0 (m ((c : Thread nD τ).loc main_arg1)) :=
  (W7_of_ne m ρ c main_v3 (by decide)).trans ((W6_of_ne m ρ c main_v3 (by decide)).trans ((W5_keep_main_v3 m ρ c).trans (W4_row m ρ c)))
theorem W7_col (c : Dev nD) : W7 m ρ c (Proc.devRef .tc main_v6) = endpoints1 (m ((c : Thread nD τ).loc main_arg1)) :=
  (W7_of_ne m ρ c main_v6 (by decide)).trans ((W6_of_ne m ρ c main_v6 (by decide)).trans ((W5_keep_main_v6 m ρ c).trans (W4_col m ρ c)))
theorem W7_norm (c : Dev nD) : W7 m ρ c (Proc.devRef .tc main_v31)
    = edgeNorm (endpoints0 (m ((c : Thread nD τ).loc main_arg1))) (endpoints1 (m ((c : Thread nD τ).loc main_arg1))) :=
  (W7_of_ne m ρ c main_v31 (by decide)).trans ((W6_of_ne m ρ c main_v31 (by decide)).trans ((W5_keep_main_v31 m ρ c).trans (W4_norm m ρ c)))
theorem W7_arg5 (c : Dev nD) : W7 m ρ c (Proc.devRef .tc main_arg5) = m ((c : Thread nD τ).loc main_arg5) :=
  (W7_of_ne m ρ c main_arg5 (by decide)).trans ((W6_of_ne m ρ c main_arg5 (by decide)).trans ((W5_keep_main_arg5 m ρ c).trans (W4_arg5 m ρ c)))

/-! ## What region 3's entry and exit hold -/

/-- The second layer's aggregated messages. -/
def agg2 (c : Dev nD) : (⟨S100000x128, .f32⟩ : BufTy).Contents (Elt Ideal) :=
  aggregate (endpoints0 (m ((c : Thread nD τ).loc main_arg1))) (endpoints1 (m ((c : Thread nD τ).loc main_arg1)))
    (edgeNorm (endpoints0 (m ((c : Thread nD τ).loc main_arg1))) (endpoints1 (m ((c : Thread nD τ).loc main_arg1))))
    (matProd (out1 m c) (m ((c : Thread nD τ).loc main_arg4)))

theorem W8_agg2 (c : Dev nD) : W8 m ρ c (Proc.devRef .tc main_v61) = agg2 m c := by
  refine (W8_agg m ρ c).trans ?_
  rw [W7_row, W7_col, W7_norm, W7_prod]
  rfl

theorem W8_bias2 (c : Dev nD) : W8 m ρ c (Proc.devRef .tc main_v62)
    = shapeCast S1x128 (m ((c : Thread nD τ).loc main_arg5)) shapeCasts_S128_S1x128 := by
  refine (W8_bias m ρ c).trans ?_
  rw [W7_arg5]

/-- The result array at the last boundary is the two-layer function of the arguments. -/
theorem W9_result (c : Dev nD) : W9 m ρ c (Proc.devRef .tc main_v63)
    = gcn (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  (W9_arr m ρ c 2).trans ((Region3.final (V8 m ρ) c).trans (congrArg₂ biasRelu (W8_agg2 m ρ c) (W8_bias2 m ρ c)))

/-- The kernel program's run: its result array ends at the two-layer function of the arguments, the arguments as
    launched. -/
theorem run : θ_run defs (onTc (τ := τ) (main (F := Ideal))) ⟨m, fun _ => 0, ρ⟩ (fun r => ∀ c : Dev nD,
      r.2.mem ((c.tc : Thread nD τ).loc main_v63)
        = gcn (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (W9_result m ρ c), (h c).2⟩) (Cert.KernelIdeal.Hand.run_result m ρ)

end Cert.KernelIdeal.Result

end
-- ==== Proof.lean ====
/-
  A two-layer graph convolution on 100000 nodes with 128 features: each layer multiplies the features by a weight
  matrix, passes messages along the edges (self loops added; every message scaled by the symmetric degree
  normalisation of its edge; messages summed at the destination), adds a bias row and rectifies.

  The kernel program computes the two dense stages of each layer in pipelined regions over ten blocks of 10000 rows —
  the matrix product with its operands rounded to a narrower float format first, which on extended reals is the
  identity, and bias-plus-rectifier — and leaves the graph side to host operations.  The reference computes
  everything with host operations.  Both apply literally the same graph-side operations, so the proof carries those as
  opaque functions and compares only the dense stages: a product into a zero accumulator and a host dot product are the
  same sum over the contracted axis, and entry (r, n) of either dense stage depends on row r only, which is why ten row
  blocks written back one after another assemble the whole-array function.  No law used needs finiteness: the
  precondition is never opened.

  The three frames are the generated ones (the reference's is its run with the result dropped); the ideal pass rewrote
  nothing, so the preservation claim is trivial.
-/
import proofs.«166285_j32375463477659_1_alg».proof.Defs
import proofs.«166285_j32375463477659_1_alg».proof.Proof.Gen.Kernel
import proofs.«166285_j32375463477659_1_alg».proof.Proof.Gen.Kernel.Skeleton
import proofs.«166285_j32375463477659_1_alg».proof.Proof.Gen.Kernel.Launch
import proofs.«166285_j32375463477659_1_alg».proof.Proof.Gen.Kernel.Points
import proofs.«166285_j32375463477659_1_alg».proof.Proof.Gen.Kernel.Frame
import proofs.«166285_j32375463477659_1_alg».proof.Proof.Gen.KernelIdeal
import proofs.«166285_j32375463477659_1_alg».proof.Proof.Gen.KernelIdeal.Skeleton
import proofs.«166285_j32375463477659_1_alg».proof.Proof.Gen.KernelIdeal.Launch
import proofs.«166285_j32375463477659_1_alg».proof.Proof.Gen.KernelIdeal.Points
import proofs.«166285_j32375463477659_1_alg».proof.Proof.Gen.KernelIdeal.Frame
import proofs.«166285_j32375463477659_1_alg».proof.Proof.Gen.ReferenceIdeal
import proofs.«166285_j32375463477659_1_alg».proof.Proof.Gen.Pre_finite_inputs
import proofs.«166285_j32375463477659_1_alg».proof.Proof.RefRunPatched
import proofs.«166285_j32375463477659_1_alg».proof.Proof.GlueRef
import proofs.«166285_j32375463477659_1_alg».proof.Proof.KernelValue
import Idealize.ShloMosaic.Adequacy
import Idealize.ShloMosaic.Init

noncomputable section

open Idealize.ShloMosaic Idealize.ShloMosaic.TcCoe Idealize.SL.Sem

/-! ## The reference's composition is the kernel program's -/

namespace Cert.Proof.Bridge

open Cert.Gcn

/-- The host's layer epilogue is bias-and-rectifier with the bias as a one-row array. -/
theorem hostLayer_eq (a : FVec Ideal Cert.ReferenceIdeal.S100000x128 .f32)
    (b : FVec Ideal Cert.ReferenceIdeal.S128 .f32) :
    Cert.ReferenceIdeal.Glue.hostLayer (F := Ideal) a b
      = biasRelu a (shapeCast Cert.KernelIdeal.S1x128 b Cert.KernelIdeal.Gen.shapeCasts_S128_S1x128) :=
  Cert.Gcn.host_biasRelu_eq a b _ _ _ _

/-- The host's dot product is the matrix product. -/
theorem hostDot_eq (a : FVec Ideal Cert.ReferenceIdeal.S100000x128 .f32)
    (w : FVec Ideal Cert.ReferenceIdeal.S128x128 .f32) :
    Host.dotGeneral (F := Ideal) Cert.ReferenceIdeal.dot_S100000x128_S128x128_S100000x128_1_0_0_1_n_n none a w = matProd a w :=
  Cert.Gcn.host_dot_eq _ rfl none a w

/-- The two programs' compositions are one function of the arguments: the dense stages by the two lemmas above, the
    graph-side operations the same operations in both. -/
theorem gcn_eq (x : FVec Ideal Cert.ReferenceIdeal.S100000x128 .f32)
    (ei : (⟨Cert.ReferenceIdeal.S2x640000, .i32⟩ : BufTy).Contents (Elt Ideal))
    (w1 : FVec Ideal Cert.ReferenceIdeal.S128x128 .f32)
    (b1 : FVec Ideal Cert.ReferenceIdeal.S128 .f32)
    (w2 : FVec Ideal Cert.ReferenceIdeal.S128x128 .f32)
    (b2 : FVec Ideal Cert.ReferenceIdeal.S128 .f32) :
    Cert.ReferenceIdeal.Glue.gcn (F := Ideal) x ei w1 b1 w2 b2 = Cert.KernelIdeal.Result.gcn x ei w1 b1 w2 b2 := by
  unfold Cert.ReferenceIdeal.Glue.gcn Cert.KernelIdeal.Result.gcn
  simp only [hostLayer_eq, hostDot_eq]
  rfl

end Cert.Proof.Bridge

/-! ## The claims -/

namespace Cert.Proof

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- Both programs, from memories agreeing on the arguments, end with the two-layer function of the arguments in their
    result arrays. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.Glue.res_eq, (hagree c).1, (hagree c).2.1, (hagree c).2.2.1, (hagree c).2.2.2.1,
    (hagree c).2.2.2.2.1, (hagree c).2.2.2.2.2]
  exact Cert.Proof.Bridge.gcn_eq _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
